-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x256 : Shape := ⟨2, ![256, 256]⟩
abbrev S256 : Shape := ⟨1, ![256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S32x256x56x56 .f32) (main_arg1 : FVec F S256x256 .f32) (main_arg2 : FVec F S256 .f32) (main_arg3 : FVec F S256 .f32) (main_arg4 : FVec F S256 .f32) (main_arg5 : FVec F S256 .f32) (main_arg6 : FVec F S256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S32x256x56x56 : Shape := ⟨4, ![32, 256, 56, 56]⟩
abbrev S256x256 : Shape := ⟨2, ![256, 256]⟩
abbrev S256 : Shape := ⟨1, ![256]⟩
abbrev S32x56x56x256 : Shape := ⟨4, ![32, 56, 56, 256]⟩
abbrev S32x3136x256 : Shape := ⟨3, ![32, 3136, 256]⟩
abbrev S_ : Shape := ⟨0, ![]⟩
abbrev S1x256 : Shape := ⟨2, ![1, 256]⟩
abbrev S4x3136x256 : Shape := ⟨3, ![4, 3136, 256]⟩
abbrev S1x3136x256 : Shape := ⟨3, ![1, 3136, 256]⟩
abbrev S3136x256 : Shape := ⟨2, ![3136, 256]⟩
abbrev S128x256 : Shape := ⟨2, ![128, 256]⟩
abbrev S64x256 : Shape := ⟨2, ![64, 256]⟩

abbrev nBuf : Space → Nat
  | .hbm => 26
  | .vmem => 8
  | .smem => 0
  | _ => 0

abbrev bufTy : (tb : Table) → Fin (tcTables nBuf tb) → BufTy
  | .hbm, ⟨0, _⟩ => ⟨S32x256x56x56, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S32x56x56x256, .f32⟩
  | .hbm, ⟨8, _⟩ => ⟨S32x3136x256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S1x256, .f32⟩
  | .hbm, ⟨17, _⟩ => ⟨S1x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S1x256, .f32⟩
  | .hbm, ⟨23, _⟩ => ⟨S32x3136x256, .f32⟩
  | .hbm, ⟨24, _⟩ => ⟨S32x56x56x256, .f32⟩
  | .hbm, ⟨25, _⟩ => ⟨S32x256x56x56, .f32⟩
  | .local _ .vmem, ⟨0, _⟩ => ⟨S4x3136x256, .f32⟩
  | .local _ .vmem, ⟨1, _⟩ => ⟨S4x3136x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S4x3136x256, .f32⟩
  | .local _ .vmem, ⟨7, _⟩ => ⟨S4x3136x256, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x3136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x3136x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S32x256x56x56_S32x56x56x256_0_2_3_1 : S32x256x56x56.Transposes [0, 2, 3, 1] S32x56x56x256
  shapeCasts_S32x56x56x256_S32x3136x256 : S32x56x56x256.ShapeCasts S32x3136x256
  bcast_S_S256 : S_.BroadcastsInDim S256 (![] : Fin 0 → Fin S256.rank)
  shapeCasts_S256_S1x256 : S256.ShapeCasts S1x256
  transposes_S256x256_S256x256_1_0 : S256x256.Transposes [1, 0] S256x256
  bcast_S_S256x256 : S_.BroadcastsInDim S256x256 (![] : Fin 0 → Fin S256x256.rank)
  inb_S4x3136x256_S1x3136x256_0_0_0 : ∀ a, (![0, 0, 0] : Fin 3 → Nat) a + S1x3136x256.size a ≤ S4x3136x256.size a
  h_S1x3136x256 : 0 < S1x3136x256.numel
  shapeCasts_S1x3136x256_S3136x256 : S1x3136x256.ShapeCasts S3136x256
  slices_S3136x256_o0_0_S128x256 : S3136x256.Slices ![0, 0] S128x256
  slices_S3136x256_o128_0_S128x256 : S3136x256.Slices ![128, 0] S128x256
  slices_S3136x256_o256_0_S128x256 : S3136x256.Slices ![256, 0] S128x256
  slices_S3136x256_o384_0_S128x256 : S3136x256.Slices ![384, 0] S128x256
  slices_S3136x256_o512_0_S128x256 : S3136x256.Slices ![512, 0] S128x256
  slices_S3136x256_o640_0_S128x256 : S3136x256.Slices ![640, 0] S128x256
  slices_S3136x256_o768_0_S128x256 : S3136x256.Slices ![768, 0] S128x256
  slices_S3136x256_o896_0_S128x256 : S3136x256.Slices ![896, 0] S128x256
  slices_S3136x256_o1024_0_S128x256 : S3136x256.Slices ![1024, 0] S128x256
  slices_S3136x256_o1152_0_S128x256 : S3136x256.Slices ![1152, 0] S128x256
  slices_S3136x256_o1280_0_S128x256 : S3136x256.Slices ![1280, 0] S128x256
  slices_S3136x256_o1408_0_S128x256 : S3136x256.Slices ![1408, 0] S128x256
  slices_S3136x256_o1536_0_S128x256 : S3136x256.Slices ![1536, 0] S128x256
  slices_S3136x256_o1664_0_S128x256 : S3136x256.Slices ![1664, 0] S128x256
  slices_S3136x256_o1792_0_S128x256 : S3136x256.Slices ![1792, 0] S128x256
  slices_S3136x256_o1920_0_S128x256 : S3136x256.Slices ![1920, 0] S128x256
  slices_S3136x256_o2048_0_S128x256 : S3136x256.Slices ![2048, 0] S128x256
  slices_S3136x256_o2176_0_S128x256 : S3136x256.Slices ![2176, 0] S128x256
  slices_S3136x256_o2304_0_S128x256 : S3136x256.Slices ![2304, 0] S128x256
  slices_S3136x256_o2432_0_S128x256 : S3136x256.Slices ![2432, 0] S128x256
  slices_S3136x256_o2560_0_S128x256 : S3136x256.Slices ![2560, 0] S128x256
  slices_S3136x256_o2688_0_S128x256 : S3136x256.Slices ![2688, 0] S128x256
  slices_S3136x256_o2816_0_S128x256 : S3136x256.Slices ![2816, 0] S128x256
  slices_S3136x256_o2944_0_S128x256 : S3136x256.Slices ![2944, 0] S128x256
  slices_S3136x256_o3072_0_S64x256 : S3136x256.Slices ![3072, 0] S64x256
  reduces_S128x256_S256 : S128x256.Reduces [0] S256
  reduces_S64x256_S256 : S64x256.Reduces [0] S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3136x256 : S1x256.Broadcasts S3136x256
  shapeCasts_S3136x256_S1x3136x256 : S3136x256.ShapeCasts S1x3136x256
  inb_S4x3136x256_S1x3136x256_1_0_0 : ∀ a, (![1, 0, 0] : Fin 3 → Nat) a + S1x3136x256.size a ≤ S4x3136x256.size a
  inb_S4x3136x256_S1x3136x256_2_0_0 : ∀ a, (![2, 0, 0] : Fin 3 → Nat) a + S1x3136x256.size a ≤ S4x3136x256.size a
  inb_S4x3136x256_S1x3136x256_3_0_0 : ∀ a, (![3, 0, 0] : Fin 3 → Nat) a + S1x3136x256.size a ≤ S4x3136x256.size a
  shapeCasts_S32x3136x256_S32x56x56x256 : S32x3136x256.ShapeCasts S32x56x56x256
  transposes_S32x56x56x256_S32x256x56x56_0_3_1_2 : S32x56x56x256.Transposes [0, 3, 1, 2] S32x256x56x56
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3136x256.size a ≤ S32x3136x256.size a
  hwx0_0 : ∀ i : grid0.Coords, EltTy.bits .f32 = 32 ∨ (Rect.block (s := S32x3136x256) S4x3136x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x3136x256.size a ≤ S32x3136x256.size a
  hwx0_5 : ∀ i : grid0.Coords, EltTy.bits .f32 = 32 ∨ (Rect.block (s := S32x3136x256) S4x3136x256.size (cc0_transform_5 i) (hinb0_5 i)).WholeWords (EltTy.packing .f32)

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_v1) S4x3136x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4x3136x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256x256 : Shape := ⟨2, ![256, 256]⟩
abbrev S256 : Shape := ⟨1, ![256]⟩
abbrev S32x256x3136 : Shape := ⟨3, ![32, 256, 3136]⟩
abbrev S_ : Shape := ⟨0, ![]⟩
abbrev S256x1 : Shape := ⟨2, ![256, 1]⟩
abbrev S1x256x3136 : Shape := ⟨3, ![1, 256, 3136]⟩
abbrev S256x3136 : Shape := ⟨2, ![256, 3136]⟩
abbrev S256x128 : Shape := ⟨2, ![256, 128]⟩
abbrev S256x64 : Shape := ⟨2, ![256, 64]⟩

abbrev nBuf : Space → Nat
  | .hbm => 23
  | .vmem => 8
  | .smem => 0
  | _ => 0

abbrev bufTy : (tb : Table) → Fin (tcTables nBuf tb) → BufTy
  | .hbm, ⟨0, _⟩ => ⟨S32x256x56x56, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S32x256x3136, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x1, .f32⟩
  | .hbm, ⟨21, _⟩ => ⟨S32x256x3136, .f32⟩
  | .hbm, ⟨22, _⟩ => ⟨S32x256x56x56, .f32⟩
  | .local _ .vmem, ⟨0, _⟩ => ⟨S1x256x3136, .f32⟩
  | .local _ .vmem, ⟨1, _⟩ => ⟨S1x256x3136, .f32⟩
  | .local _ .vmem, ⟨2, _⟩ => ⟨S256x256, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S1x256x3136, .f32⟩
  | .local _ .vmem, ⟨7, _⟩ => ⟨S1x256x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x56x56_S32x256x3136 : S32x256x56x56.ShapeCasts S32x256x3136
  bcast_S_S256 : S_.BroadcastsInDim S256 (![] : Fin 0 → Fin S256.rank)
  shapeCasts_S256_S256x1 : S256.ShapeCasts S256x1
  bcast_S_S256x256 : S_.BroadcastsInDim S256x256 (![] : Fin 0 → Fin S256x256.rank)
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  slices_S256x3136_o0_0_S256x128 : S256x3136.Slices ![0, 0] S256x128
  slices_S256x3136_o0_128_S256x128 : S256x3136.Slices ![0, 128] S256x128
  slices_S256x3136_o0_256_S256x128 : S256x3136.Slices ![0, 256] S256x128
  slices_S256x3136_o0_384_S256x128 : S256x3136.Slices ![0, 384] S256x128
  slices_S256x3136_o0_512_S256x128 : S256x3136.Slices ![0, 512] S256x128
  slices_S256x3136_o0_640_S256x128 : S256x3136.Slices ![0, 640] S256x128
  slices_S256x3136_o0_768_S256x128 : S256x3136.Slices ![0, 768] S256x128
  slices_S256x3136_o0_896_S256x128 : S256x3136.Slices ![0, 896] S256x128
  slices_S256x3136_o0_1024_S256x128 : S256x3136.Slices ![0, 1024] S256x128
  slices_S256x3136_o0_1152_S256x128 : S256x3136.Slices ![0, 1152] S256x128
  slices_S256x3136_o0_1280_S256x128 : S256x3136.Slices ![0, 1280] S256x128
  slices_S256x3136_o0_1408_S256x128 : S256x3136.Slices ![0, 1408] S256x128
  slices_S256x3136_o0_1536_S256x128 : S256x3136.Slices ![0, 1536] S256x128
  slices_S256x3136_o0_1664_S256x128 : S256x3136.Slices ![0, 1664] S256x128
  slices_S256x3136_o0_1792_S256x128 : S256x3136.Slices ![0, 1792] S256x128
  slices_S256x3136_o0_1920_S256x128 : S256x3136.Slices ![0, 1920] S256x128
  slices_S256x3136_o0_2048_S256x128 : S256x3136.Slices ![0, 2048] S256x128
  slices_S256x3136_o0_2176_S256x128 : S256x3136.Slices ![0, 2176] S256x128
  slices_S256x3136_o0_2304_S256x128 : S256x3136.Slices ![0, 2304] S256x128
  slices_S256x3136_o0_2432_S256x128 : S256x3136.Slices ![0, 2432] S256x128
  slices_S256x3136_o0_2560_S256x128 : S256x3136.Slices ![0, 2560] S256x128
  slices_S256x3136_o0_2688_S256x128 : S256x3136.Slices ![0, 2688] S256x128
  slices_S256x3136_o0_2816_S256x128 : S256x3136.Slices ![0, 2816] S256x128
  slices_S256x3136_o0_2944_S256x128 : S256x3136.Slices ![0, 2944] S256x128
  reduces_S256x128_S256 : S256x128.Reduces [1] S256
  slices_S256x3136_o0_3072_S256x64 : S256x3136.Slices ![0, 3072] S256x64
  reduces_S256x64_S256 : S256x64.Reduces [1] S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x3136 : S256x1.Broadcasts S256x3136
  shapeCasts_S256x3136_S1x256x3136 : S256x3136.ShapeCasts S1x256x3136
  shapeCasts_S32x256x3136_S32x256x56x56 : S32x256x3136.ShapeCasts S32x256x56x56
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S32x256x3136.size a
  hwx0_0 : ∀ i : grid0.Coords, EltTy.bits .f32 = 32 ∨ (Rect.block (s := S32x256x3136) S1x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x3136.size a ≤ S32x256x3136.size a
  hwx0_5 : ∀ i : grid0.Coords, EltTy.bits .f32 = 32 ∨ (Rect.block (s := S32x256x3136) S1x256x3136.size (cc0_transform_5 i) (hinb0_5 i)).WholeWords (EltTy.packing .f32)

variable [Facts₀]

def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_v0) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256x3136.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The attention-refinement result as one function of the argument arrays, and the two ways of adding up a channel.

  Per image n and channel c the 56 × 56 spatial entries are taken in row-major order as 3136 flat positions.  The
  pooled sum of a channel is taken over those positions as 24 chunks of 128 and a tail of 64: position 128 j + r of
  chunk j, offset r.  One program adds the 24 chunks pairwise as a balanced tree before summing over r, the other
  adds them left to right; on the extended reals addition is commutative and associative, so both are the sum over
  the chunks (`tree_eq_colsum`, `chain_eq_colsum`), and nothing here needs finiteness.

  With s = gamma · rsqrt (var + eps) and t = beta − mean · s per channel, the gate of (n, c) is
  logistic ((Σ_k pool (n, k) · (w (c, k) · κ) + b c) · s c + t c) · s c, κ the f32 word of 1/3136, and the result at
  (n, c, h, w) is max (x (n, c, h, w) · gate (n, c) + t c) 0.
-/
import Idealize.ShloMosaic.Lib.ValueIdx
import Idealize.ShloMosaic.PureOps.Ideal.Laws

noncomputable section

namespace Cert.Arm

open Idealize.ShloMosaic Idealize.ShloMosaic.ValueIdx

abbrev SX : Shape := ⟨4, ![32, 256, 56, 56]⟩
abbrev SW : Shape := ⟨2, ![256, 256]⟩
abbrev SC : Shape := ⟨1, ![256]⟩

/-- The flat position of spatial entry (h, w): row-major over 56 × 56. -/
def flat56 (h w : Fin 56) : Fin 3136 := ⟨56 * h.val + w.val, by omega⟩

/-- Image n, channel c of x at flat position q. -/
def img (x : FVec Ideal SX .f32) (n : Fin 32) (c : Fin 256) (q : Fin 3136) : EReal :=
  x (ix4 n c (⟨q.val / 56, by omega⟩ : Fin 56) (⟨q.val % 56, by omega⟩ : Fin 56))

theorem img_flat56 (x : FVec Ideal SX .f32) (n : Fin 32) (c : Fin 256) (h w : Fin 56) :
    img x n c (flat56 h w) = x (ix4 n c h w) := by
  unfold img flat56
  congr 1
  have e1 : (56 * h.val + w.val) / 56 = h.val := by omega
  have e2 : (56 * h.val + w.val) % 56 = w.val := by omega
  funext a
  match a with
  | ⟨0, _⟩ => rfl
  | ⟨1, _⟩ => rfl
  | ⟨2, _⟩ => exact Fin.ext e1
  | ⟨3, _⟩ => exact Fin.ext e2

/-- Offset r of the 24 chunks of 128 positions, added up. -/
def colsum (f : Fin 3136 → EReal) (r : Fin 128) : EReal :=
  ∑ j : Fin 24, f ⟨128 * j.val + r.val, by omega⟩

/-- The pooled sum: the chunk sums over the 128 offsets, and the tail of 64 positions from 3072. -/
def pool (f : Fin 3136 → EReal) : EReal :=
  (∑ r : Fin 128, colsum f r) + ∑ r : Fin 64, f ⟨3072 + r.val, by omega⟩

/-- The 24 chunks at offset r, one by one. -/
theorem colsum_eq (f : Fin 3136 → EReal) (r : Fin 128) :
    colsum f r = f ⟨0 + r.val, by omega⟩ + (f ⟨128 + r.val, by omega⟩ + (f ⟨256 + r.val, by omega⟩ + (f ⟨384 + r.val, by omega⟩
      + (f ⟨512 + r.val, by omega⟩ + (f ⟨640 + r.val, by omega⟩ + (f ⟨768 + r.val, by omega⟩ + (f ⟨896 + r.val, by omega⟩
      + (f ⟨1024 + r.val, by omega⟩ + (f ⟨1152 + r.val, by omega⟩ + (f ⟨1280 + r.val, by omega⟩ + (f ⟨1408 + r.val, by omega⟩
      + (f ⟨1536 + r.val, by omega⟩ + (f ⟨1664 + r.val, by omega⟩ + (f ⟨1792 + r.val, by omega⟩ + (f ⟨1920 + r.val, by omega⟩
      + (f ⟨2048 + r.val, by omega⟩ + (f ⟨2176 + r.val, by omega⟩ + (f ⟨2304 + r.val, by omega⟩ + (f ⟨2432 + r.val, by omega⟩
      + (f ⟨2560 + r.val, by omega⟩ + (f ⟨2688 + r.val, by omega⟩ + (f ⟨2816 + r.val, by omega⟩
      + f ⟨2944 + r.val, by omega⟩)))))))))))))))))))))) := by
  unfold colsum
  simp only [Fin.sum_univ_succ, Fin.sum_univ_zero, add_zero]
  rfl

/-- The 24 chunks added pairwise as a balanced tree (12, 6, 3 sums, then the first two and the third). -/
theorem tree_eq_colsum (f : Fin 3136 → EReal) (r : Fin 128) :
    ((((f ⟨0 + r.val, by omega⟩ + f ⟨128 + r.val, by omega⟩) + (f ⟨256 + r.val, by omega⟩ + f ⟨384 + r.val, by omega⟩))
        + ((f ⟨512 + r.val, by omega⟩ + f ⟨640 + r.val, by omega⟩) + (f ⟨768 + r.val, by omega⟩ + f ⟨896 + r.val, by omega⟩)))
      + (((f ⟨1024 + r.val, by omega⟩ + f ⟨1152 + r.val, by omega⟩) + (f ⟨1280 + r.val, by omega⟩ + f ⟨1408 + r.val, by omega⟩))
        + ((f ⟨1536 + r.val, by omega⟩ + f ⟨1664 + r.val, by omega⟩) + (f ⟨1792 + r.val, by omega⟩ + f ⟨1920 + r.val, by omega⟩))))
      + (((f ⟨2048 + r.val, by omega⟩ + f ⟨2176 + r.val, by omega⟩) + (f ⟨2304 + r.val, by omega⟩ + f ⟨2432 + r.val, by omega⟩))
        + ((f ⟨2560 + r.val, by omega⟩ + f ⟨2688 + r.val, by omega⟩) + (f ⟨2816 + r.val, by omega⟩ + f ⟨2944 + r.val, by omega⟩)))
      = colsum f r := by
  rw [colsum_eq]
  ac_rfl

/-- The 24 chunks added left to right. -/
theorem chain_eq_colsum (f : Fin 3136 → EReal) (r : Fin 128) :
    (((((((((((((((((((((((f ⟨0 + r.val, by omega⟩ + f ⟨128 + r.val, by omega⟩) + f ⟨256 + r.val, by omega⟩) + f ⟨384 + r.val, by omega⟩)
      + f ⟨512 + r.val, by omega⟩) + f ⟨640 + r.val, by omega⟩) + f ⟨768 + r.val, by omega⟩) + f ⟨896 + r.val, by omega⟩)
      + f ⟨1024 + r.val, by omega⟩) + f ⟨1152 + r.val, by omega⟩) + f ⟨1280 + r.val, by omega⟩) + f ⟨1408 + r.val, by omega⟩)
      + f ⟨1536 + r.val, by omega⟩) + f ⟨1664 + r.val, by omega⟩) + f ⟨1792 + r.val, by omega⟩) + f ⟨1920 + r.val, by omega⟩)
      + f ⟨2048 + r.val, by omega⟩) + f ⟨2176 + r.val, by omega⟩) + f ⟨2304 + r.val, by omega⟩) + f ⟨2432 + r.val, by omega⟩)
      + f ⟨2560 + r.val, by omega⟩) + f ⟨2688 + r.val, by omega⟩) + f ⟨2816 + r.val, by omega⟩) + f ⟨2944 + r.val, by omega⟩)
      = colsum f r := by
  rw [colsum_eq]
  ac_rfl

/-- The folded batch-norm scale of channel c: gamma · rsqrt (var + eps), eps the f32 word of 1e-5. -/
def bnScale (gamma var : FVec Ideal SC .f32) (c : Fin 256) : EReal :=
  gamma (ix1 c) * Ideal.rsqrt (var (ix1 c) + Ideal.ofBits .f32 0x3727C5AC#32)

/-- The folded batch-norm shift of channel c: beta − mean · scale. -/
def bnShift (gamma beta mean var : FVec Ideal SC .f32) (c : Fin 256) : EReal :=
  beta (ix1 c) - mean (ix1 c) * bnScale gamma var c

/-- The weight of output channel c on input channel k with the pooling mean folded in: w (c, k) · κ, κ the f32 word
    of 1/3136. -/
def wk (w : FVec Ideal SW .f32) (c k : Fin 256) : EReal :=
  w (ix2 c k) * Ideal.ofBits .f32 0x39A72F05#32

/-- The bias of channel c. -/
def bias (b : FVec Ideal SC .f32) (c : Fin 256) : EReal := b (ix1 c)

/-- The gate of a channel from the pooled sums `p` of all channels, the channel's scaled weights `ws`, its bias, its
    scale and its shift. -/
def gateOf (p : Fin 256 → EReal) (ws : Fin 256 → EReal) (bc s t : EReal) : EReal :=
  Ideal.logistic (((∑ k : Fin 256, p k * ws k) + bc) * s + t) * s

/-- The gate of image n, channel c. -/
def gate (x : FVec Ideal SX .f32) (w : FVec Ideal SW .f32) (b gamma beta mean var : FVec Ideal SC .f32)
    (n : Fin 32) (c : Fin 256) : EReal :=
  gateOf (fun k => pool (img x n k)) (wk w c) (bias b c) (bnScale gamma var c) (bnShift gamma beta mean var c)

/-- The result at image n, channel c, flat position q. -/
def Gq (x : FVec Ideal SX .f32) (w : FVec Ideal SW .f32) (b gamma beta mean var : FVec Ideal SC .f32)
    (n : Fin 32) (c : Fin 256) (q : Fin 3136) : EReal :=
  max (img x n c q * gate x w b gamma beta mean var n c + bnShift gamma beta mean var c) 0

/-- The result array. -/
def G (x : FVec Ideal SX .f32) (w : FVec Ideal SW .f32) (b gamma beta mean var : FVec Ideal SC .f32) :
    FVec Ideal SX .f32 :=
  fun i => Gq x w b gamma beta mean var (i 0) (i 1) (flat56 (i 2) (i 3))

theorem G_apply (x : FVec Ideal SX .f32) (w : FVec Ideal SW .f32) (b gamma beta mean var : FVec Ideal SC .f32)
    (n : Fin 32) (c : Fin 256) (h w' : Fin 56) :
    G x w b gamma beta mean var (ix4 n c h w') = Gq x w b gamma beta mean var n c (flat56 h w') := rfl

end Cert.Arm

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColSum.lean ====
/-
  Columns of a matrix added up, read at an index, on the extended reals.

  For an a × b matrix v, the sum along the FIRST axis read at column p is the sum over k of v (k, p): the index of the
  matrix that a column index with the coordinate k put back on the first axis names is (k, p).  For any extents;
  nothing is evaluated.
-/
import Idealize.ShloMosaic.Lib.ValueIdx
import Idealize.ShloMosaic.Lib.Pipeline.Value
import Idealize.ShloMosaic.PureOps.Ideal.Laws

noncomputable section

namespace Cert.LibColSum

open Idealize.ShloMosaic Idealize.ShloMosaic.ValueIdx

variable {a b : ℕ}

/-- The index of a matrix over column p with coordinate k put on the first axis is (k, p). -/
theorem lift_col (h : (⟨2, ![a, b]⟩ : Shape).Reduces [0] ⟨1, ![b]⟩) (p : Fin b) (k : Fin a) :
    h.lift (ix1 p) k = ix2 k p := by
  funext c
  match c with
  | ⟨0, _⟩ => exact Fin.ext rfl
  | ⟨1, _⟩ => exact Fin.ext rfl

/-- A sum along the first axis, read at column p: the sum of the column's entries. -/
theorem colSum_apply {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (p : Fin b) :
    multiReduction .add [0] ⟨1, ![b]⟩ v acc h hφ hacc (ix1 p) = ∑ k : Fin a, v (ix2 k p) :=
  (Ideal.multiReduction_add_single v acc h hφ hacc (ix1 p)).trans
    (Finset.sum_congr rfl fun k _ => congrArg v (lift_col h p k))

end Cert.LibColSum

end
-- ==== Proof.KImage.lean ====
/-
  One image of the kernel: what the body computes for one of the four images of a block, as a function of the image
  (3136 flat positions × 256 channels, channels last) and of the four small operands (the scaled transposed weights, and
  the bias, scale and shift as rows), read at an index on the extended reals.

  The 3136 rows are cut into 24 chunks of 128 rows and a tail of 64.  The 24 chunks are added entry by entry as a
  balanced tree; at row r, channel k the result is the sum over the chunks j of the image at row 128 j + r (the tree law of
  the specification).  Summing that over the 128 rows, and the tail over its 64 rows, and adding the two gives the pooled
  sum of channel k.  The row of gates is logistic ((pooled · W + b) · s + t) · s, entry by entry, the product with W the
  sum over the 256 channels; the image's result at (q, j) is max (X (q, j) · gate j + t j) 0.
-/
import proofs.«135338_g2000302613330175_pallasbulk_1059_14_alg».proof.Proof.Gen.KernelIdeal.Skeleton
import proofs.«135338_g2000302613330175_pallasbulk_1059_14_alg».proof.Proof.Spec
import proofs.«135338_g2000302613330175_pallasbulk_1059_14_alg».proof.Proof.LibDot
import proofs.«135338_g2000302613330175_pallasbulk_1059_14_alg».proof.Proof.LibColSum
import Idealize.ShloMosaic.Lib.ValueLayout

noncomputable section

namespace Cert.Arm.KImage

open Idealize.ShloMosaic Idealize.ShloMosaic.ValueIdx Cert.KernelIdeal Cert.KernelIdeal.Facts₀ Cert.KernelIdeal.Facts

section Fns

variable {F : FTy → Type} [FloatOps F]

/-- The 24 chunks of 128 rows, added pairwise as a balanced tree. -/
def treeSum (X : FVec F S3136x256 .f32) : FVec F S128x256 .f32 :=
  addf (addf (addf (addf (addf (extractStridedSlice S128x256 ![0, 0] X slices_S3136x256_o0_0_S128x256) (extractStridedSlice S128x256 ![128, 0] X slices_S3136x256_o128_0_S128x256)) (addf (extractStridedSlice S128x256 ![256, 0] X slices_S3136x256_o256_0_S128x256) (extractStridedSlice S128x256 ![384, 0] X slices_S3136x256_o384_0_S128x256))) (addf (addf (extractStridedSlice S128x256 ![512, 0] X slices_S3136x256_o512_0_S128x256) (extractStridedSlice S128x256 ![640, 0] X slices_S3136x256_o640_0_S128x256)) (addf (extractStridedSlice S128x256 ![768, 0] X slices_S3136x256_o768_0_S128x256) (extractStridedSlice S128x256 ![896, 0] X slices_S3136x256_o896_0_S128x256)))) (addf (addf (addf (extractStridedSlice S128x256 ![1024, 0] X slices_S3136x256_o1024_0_S128x256) (extractStridedSlice S128x256 ![1152, 0] X slices_S3136x256_o1152_0_S128x256)) (addf (extractStridedSlice S128x256 ![1280, 0] X slices_S3136x256_o1280_0_S128x256) (extractStridedSlice S128x256 ![1408, 0] X slices_S3136x256_o1408_0_S128x256))) (addf (addf (extractStridedSlice S128x256 ![1536, 0] X slices_S3136x256_o1536_0_S128x256) (extractStridedSlice S128x256 ![1664, 0] X slices_S3136x256_o1664_0_S128x256)) (addf (extractStridedSlice S128x256 ![1792, 0] X slices_S3136x256_o1792_0_S128x256) (extractStridedSlice S128x256 ![1920, 0] X slices_S3136x256_o1920_0_S128x256))))) (addf (addf (addf (extractStridedSlice S128x256 ![2048, 0] X slices_S3136x256_o2048_0_S128x256) (extractStridedSlice S128x256 ![2176, 0] X slices_S3136x256_o2176_0_S128x256)) (addf (extractStridedSlice S128x256 ![2304, 0] X slices_S3136x256_o2304_0_S128x256) (extractStridedSlice S128x256 ![2432, 0] X slices_S3136x256_o2432_0_S128x256))) (addf (addf (extractStridedSlice S128x256 ![2560, 0] X slices_S3136x256_o2560_0_S128x256) (extractStridedSlice S128x256 ![2688, 0] X slices_S3136x256_o2688_0_S128x256)) (addf (extractStridedSlice S128x256 ![2816, 0] X slices_S3136x256_o2816_0_S128x256) (extractStridedSlice S128x256 ![2944, 0] X slices_S3136x256_o2944_0_S128x256))))

/-- The pooled sums as a row: the tree summed over its 128 rows, plus the tail's 64 rows summed. -/
def pooledRow (X : FVec F S3136x256 .f32) : FVec F S1x256 .f32 :=
  addf
    (shapeCast S1x256 (multiReduction .add [0] S256 (treeSum X) 0x00000000#32 reduces_S128x256_S256 (.inl rfl) rfl) shapeCasts_S256_S1x256)
    (shapeCast S1x256 (multiReduction .add [0] S256 (extractStridedSlice S64x256 ![3072, 0] X slices_S3136x256_o3072_0_S64x256)
      0x00000000#32 reduces_S64x256_S256 (.inl rfl) rfl) shapeCasts_S256_S1x256)

/-- The pooled row through the weights, plus the bias. -/
def convRow (X : FVec F S3136x256 .f32) (W : Vec F S256x256 .f32) (B : Vec F S1x256 .f32) : FVec F S1x256 .f32 :=
  addf (matmul dot_S1x256_S256x256_S1x256_1_0_0_1_n_n none (pooledRow X) (shapeCast S256x256 W shapeCasts_S256x256_S256x256)
      (constant S1x256 .f32 0x00000000#32))
    (shapeCast S1x256 B shapeCasts_S1x256_S1x256)

/-- The image's result from its convolved row: the gate row, laid over the image, times the image, plus the shift,
    clipped below at zero. -/
def applyRow (X : FVec F S3136x256 .f32) (Z : FVec F S1x256 .f32) (S T S' T' : Vec F S1x256 .f32) : FVec F S1x3136x256 .f32 :=
  shapeCast S1x3136x256
    (maximumf
      (addf
        (mulf X (broadcastTo S3136x256
          (mulf (logistic (addf (mulf Z (shapeCast S1x256 S shapeCasts_S1x256_S1x256)) (shapeCast S1x256 T shapeCasts_S1x256_S1x256)))
            (shapeCast S1x256 S' shapeCasts_S1x256_S1x256))
          broadcasts_S1x256_S3136x256))
        (broadcastTo S3136x256 (shapeCast S1x256 T' shapeCasts_S1x256_S1x256) broadcasts_S1x256_S3136x256))
      (broadcast S3136x256 (Scalar.ofBits .f32 0x00000000#32)))
    shapeCasts_S3136x256_S1x3136x256

/-- One image's result. -/
def imageOut (X : FVec F S3136x256 .f32) (W : Vec F S256x256 .f32) (B S T S' T' : Vec F S1x256 .f32) : FVec F S1x3136x256 .f32 :=
  applyRow X (convRow X W B) S T S' T'

end Fns

/-! ## Read at an index, on the extended reals -/

/-- The tree of chunks at row r, channel k: the chunk sum of the channel's column. -/
theorem treeSum_apply (X : FVec Ideal S3136x256 .f32) (r : Fin 128) (k : Fin 256) :
    treeSum X (ix2 r k) = Cert.Arm.colsum (fun q => X (ix2 q k)) r := by
  unfold treeSum
  simp only [addf_apply, slice2_axis0_eq]
  exact Cert.Arm.tree_eq_colsum (fun q => X (ix2 q k)) r

/-- The pooled row at channel k: the pooled sum of the channel's column. -/
theorem pooledRow_apply (X : FVec Ideal S3136x256 .f32) (k : Fin 256) :
    pooledRow X (ix2 (0 : Fin 1) k) = Cert.Arm.pool (fun q => X (ix2 q k)) := by
  unfold pooledRow Cert.Arm.pool
  rw [addf_apply, shapeCast_a_1a_apply, shapeCast_a_1a_apply]
  refine congrArg₂ (· + ·) ?_ ?_
  · refine (Cert.LibColSum.colSum_apply _ _ _ _ _ k).trans (Finset.sum_congr rfl fun r _ => ?_)
    exact treeSum_apply X r k
  · refine (Cert.LibColSum.colSum_apply _ _ _ _ _ k).trans (Finset.sum_congr rfl fun r _ => ?_)
    exact slice2_axis0_eq 3072 X _ r k

/-- The convolved row at channel j: the pooled sums through column j of the weights, plus the bias. -/
theorem convRow_apply (X : FVec Ideal S3136x256 .f32) (W : Vec Ideal S256x256 .f32) (B : Vec Ideal S1x256 .f32) (j : Fin 256) :
    convRow X W B (ix2 (0 : Fin 1) j)
      = (∑ k : Fin 256, Cert.Arm.pool (fun q => X (ix2 q k)) * W (ix2 k j)) + B (ix2 (0 : Fin 1) j) := by
  unfold convRow
  rw [addf_apply, shapeCast_self, shapeCast_self]
  refine congrArg (· + B (ix2 (0 : Fin 1) j)) ?_
  refine (Cert.LibDot.matmul_zero_plain_apply dot_S1x256_S256x256_S1x256_1_0_0_1_n_n rfl rfl rfl rfl rfl rfl none
    (pooledRow X) W (ix2 (0 : Fin 1) j)).trans (Finset.sum_congr rfl fun k _ => ?_)
  exact congrArg (· * W (ix2 k j)) (pooledRow_apply X k)

/-- The image's result at (q, j). -/
theorem imageOut_apply (X : FVec Ideal S3136x256 .f32) (W : Vec Ideal S256x256 .f32) (B S T : Vec Ideal S1x256 .f32)
    (u : Fin 1) (q : Fin 3136) (j : Fin 256) :
    imageOut X W B S T S T (ix3 u q j)
      = max (X (ix2 q j) * Cert.Arm.gateOf (fun k => Cert.Arm.pool (fun q' => X (ix2 q' k))) (fun k => W (ix2 k j))
          (B (ix2 (0 : Fin 1) j)) (S (ix2 (0 : Fin 1) j)) (T (ix2 (0 : Fin 1) j)) + T (ix2 (0 : Fin 1) j)) 0 := by
  unfold imageOut applyRow Cert.Arm.gateOf
  rw [shapeCast_ab_1ab_apply, maximumf_apply, addf_apply, mulf_apply, broadcastTo_1b_ab_apply, broadcastTo_1b_ab_apply,
    mulf_apply, shapeCast_self, shapeCast_self, broadcast_apply]
  show max (X (ix2 q j) * (Ideal.logistic ((convRow X W B (ix2 (0 : Fin 1) j)) * S (ix2 (0 : Fin 1) j) + T (ix2 (0 : Fin 1) j))
      * S (ix2 (0 : Fin 1) j)) + T (ix2 (0 : Fin 1) j)) (Ideal.ofBits .f32 0x00000000#32) = _
  rw [convRow_apply, Ideal.ofBits_zero_f32]

end Cert.Arm.KImage

end
-- ==== Proof.KPieces.lean ====
/-
  A block of four images after the body.

  The body stores four pieces into the output block, one per image k = 0, 1, 2, 3: piece k is the per-image function of
  image k of the input block and of the four small operands.  So the block after the body, read at (k, q, j), is
  max (X (k, q, j) · gate + t j) 0 with the gate of image k, channel j: the pooled sums of image k's channels through
  column j of the weights, plus the bias, scaled, shifted, through the logistic function, scaled again.
-/
import proofs.«135338_g2000302613330175_pallasbulk_1059_14_alg».proof.Proof.Gen.KernelIdeal.Frame
import proofs.«135338_g2000302613330175_pallasbulk_1059_14_alg».proof.Proof.KImage

noncomputable section

namespace Cert.Arm.KPieces

open Idealize.ShloMosaic Idealize.ShloMosaic.ValueIdx Cert.KernelIdeal Cert.KernelIdeal.Gen
open Cert.Arm.KImage

/-! ## The four stored pieces are the per-image function -/

section Pieces

variable {F : FTy → Type} [FloatOps F]

theorem piece0_eq (v : Vec F S1x3136x256 .f32) (w : Vec F S256x256 .f32) (b s t s' t' : Vec F S1x256 .f32) :
    k0_pay4 (k0_pay1 v) (k0_pay2 v) (k0_pay3 v) w b s t s' t'
      = imageOut (shapeCast S3136x256 v shapeCasts_S1x3136x256_S3136x256) w b s t s' t' := rfl

theorem piece1_eq (v : Vec F S1x3136x256 .f32) (w : Vec F S256x256 .f32) (b s t s' t' : Vec F S1x256 .f32) :
    k0_pay16 (k0_pay5 v) (k0_pay15 (k0_pay5 v) (k0_pay6 v) (k0_pay7 v) (k0_pay8 v) (k0_pay9 v) (k0_pay10 v) (k0_pay11 v) (k0_pay12 v) (k0_pay13 v) (k0_pay14 v) w b) s t s' t'
      = imageOut (shapeCast S3136x256 v shapeCasts_S1x3136x256_S3136x256) w b s t s' t' := rfl

theorem piece2_eq (v : Vec F S1x3136x256 .f32) (w : Vec F S256x256 .f32) (b s t s' t' : Vec F S1x256 .f32) :
    k0_pay43 (k0_pay42 (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) w b s t s') t'
      = imageOut (shapeCast S3136x256 v shapeCasts_S1x3136x256_S3136x256) w b s t s' t' := rfl

theorem piece3_eq (v : Vec F S1x3136x256 .f32) (w : Vec F S256x256 .f32) (b s t s' t' : Vec F S1x256 .f32) :
    k0_pay56 (k0_pay44 v) (k0_pay45 v) (k0_pay46 v) (k0_pay47 v) (k0_pay48 v) (k0_pay49 v) (k0_pay50 v) (k0_pay51 v) (k0_pay52 v) (k0_pay53 v) (k0_pay54 v) (k0_pay55 v) w b s t s' t'
      = imageOut (shapeCast S3136x256 v shapeCasts_S1x3136x256_S3136x256) w b s t s' t' := rfl

end Pieces

/-! ## Image k of a block of four -/

theorem hz2 : (![0, 0] : Fin 2 → Nat) = fun _ => 0 := funext fun a => by fin_cases a <;> rfl

/-- The one-image rectangle at image k places (u, q, j) at (k, q, j). -/
theorem idx_image (k : ℕ) (hk : k < 4) (inb : ∀ a, (![k, 0, 0] : Fin 3 → ℕ) a + S1x3136x256.size a ≤ S4x3136x256.size a)
    (u : Fin 1) (q : Fin 3136) (j : Fin 256) :
    (Rect.unit (s := S4x3136x256) ![k, 0, 0] S1x3136x256.size inb).idx (ix3 u q j) = ix3 (⟨k, hk⟩ : Fin 4) q j := by
  have hu : u.val = 0 := by omega
  funext a
  apply Fin.ext
  match a with
  | ⟨0, _⟩ => show k + 1 * u.val = k; omega
  | ⟨1, _⟩ => show 0 + 1 * q.val = q.val; omega
  | ⟨2, _⟩ => show 0 + 1 * j.val = j.val; omega

/-- Image k of the block, with its unit axis dropped, read at (q, j). -/
theorem ld_image (X0 : Vec Ideal S4x3136x256 .f32) (k : ℕ) (hk : k < 4)
    (inb : ∀ a, (![k, 0, 0] : Fin 3 → ℕ) a + S1x3136x256.size a ≤ S4x3136x256.size a) (q : Fin 3136) (j : Fin 256) :
    shapeCast S3136x256 (View.ld X0 (Rect.unit (s := S4x3136x256) ![k, 0, 0] S1x3136x256.size inb)) shapeCasts_S1x3136x256_S3136x256 (ix2 q j)
      = X0 (ix3 (⟨k, hk⟩ : Fin 4) q j) := by
  rw [shapeCast_1ab_ab_apply]
  exact congrArg X0 (idx_image k hk inb 0 q j)

/-! ## The block after the body -/

/-- The block's value at image k, position q, channel j. -/
def blockVal (X0 : Vec Ideal S4x3136x256 .f32) (W : Vec Ideal S256x256 .f32) (B S T : Vec Ideal S1x256 .f32)
    (k : Fin 4) (q : Fin 3136) (j : Fin 256) : EReal :=
  max (X0 (ix3 k q j) * Cert.Arm.gateOf (fun k' => Cert.Arm.pool (fun q' => X0 (ix3 k q' k'))) (fun k' => W (ix2 k' j))
      (B (ix2 (0 : Fin 1) j)) (S (ix2 (0 : Fin 1) j)) (T (ix2 (0 : Fin 1) j)) + T (ix2 (0 : Fin 1) j)) 0

/-- The same as a function of the block's index. -/
def blockFn (X0 : Vec Ideal S4x3136x256 .f32) (W : Vec Ideal S256x256 .f32) (B S T : Vec Ideal S1x256 .f32) :
    S4x3136x256.Idx → EReal := fun y => blockVal X0 W B S T (y 0) (y 1) (y 2)

/-- One piece: the per-image function of image k, read at (u, q, j), is the block's value at (k, q, j). -/
theorem image_piece (X0 : Vec Ideal S4x3136x256 .f32) (W : Vec Ideal S256x256 .f32) (B S T : Vec Ideal S1x256 .f32)
    (k : ℕ) (hk : k < 4) (inb : ∀ a, (![k, 0, 0] : Fin 3 → ℕ) a + S1x3136x256.size a ≤ S4x3136x256.size a)
    (u : Fin 1) (q : Fin 3136) (j : Fin 256) :
    imageOut (shapeCast S3136x256 (View.ld X0 (Rect.unit (s := S4x3136x256) ![k, 0, 0] S1x3136x256.size inb)) shapeCasts_S1x3136x256_S3136x256)
        W B S T S T (ix3 u q j)
      = blockVal X0 W B S T ⟨k, hk⟩ q j := by
  rw [imageOut_apply]
  unfold blockVal
  simp only [ld_image X0 k hk inb]

/-- The block after the body at (k, q, j). -/
theorem out0_5_apply (X0 : Vec Ideal S4x3136x256 .f32) (W : Vec Ideal S256x256 .f32) (B S T : Vec Ideal S1x256 .f32)
    (k : Fin 4) (q : Fin 3136) (j : Fin 256) :
    out0_5 X0 W B S T (ix3 k q j) = blockVal X0 W B S T k q j := by
  unfold out0_5
  refine View.canon_apply_of_pieces (Val := Elt Ideal) (blockFn X0 W B S T) _ ?_ (ix3 k q j) (cover0_5 _ _ _ _ _)
  intro p hp
  simp only [List.mem_cons, List.mem_nil_iff, or_false] at hp
  rcases hp with rfl | rfl | rfl | rfl
  · intro x
    obtain ⟨u, q', j', rfl⟩ : ∃ (u : Fin 1) (q' : Fin 3136) (j' : Fin 256), x = ix3 u q' j' := ⟨x 0, x 1, x 2, eq_ix3 x⟩
    show k0_pay56 (F := Ideal) _ _ _ _ _ _ _ _ _ _ _ _ _ _ _ _ _ _ (ix3 u q' j') = blockFn X0 W B S T (r0_5.idx (ix3 u q' j'))
    rw [idx_image 3 (by omega) _ u q' j', piece3_eq]
    simp only [View.ld_unit_zero (S := S256x256) hz2, View.ld_unit_zero (S := S1x256) hz2]
    exact image_piece X0 W B S T 3 (by omega) _ u q' j'
  · intro x
    obtain ⟨u, q', j', rfl⟩ : ∃ (u : Fin 1) (q' : Fin 3136) (j' : Fin 256), x = ix3 u q' j' := ⟨x 0, x 1, x 2, eq_ix3 x⟩
    show k0_pay43 (F := Ideal) _ _ (ix3 u q' j') = blockFn X0 W B S T (r0_4.idx (ix3 u q' j'))
    rw [idx_image 2 (by omega) _ u q' j', piece2_eq]
    simp only [View.ld_unit_zero (S := S256x256) hz2, View.ld_unit_zero (S := S1x256) hz2]
    exact image_piece X0 W B S T 2 (by omega) _ u q' j'
  · intro x
    obtain ⟨u, q', j', rfl⟩ : ∃ (u : Fin 1) (q' : Fin 3136) (j' : Fin 256), x = ix3 u q' j' := ⟨x 0, x 1, x 2, eq_ix3 x⟩
    show k0_pay16 (F := Ideal) _ _ _ _ _ _ (ix3 u q' j') = blockFn X0 W B S T (r0_3.idx (ix3 u q' j'))
    rw [idx_image 1 (by omega) _ u q' j', piece1_eq]
    simp only [View.ld_unit_zero (S := S256x256) hz2, View.ld_unit_zero (S := S1x256) hz2]
    exact image_piece X0 W B S T 1 (by omega) _ u q' j'
  · intro x
    obtain ⟨u, q', j', rfl⟩ : ∃ (u : Fin 1) (q' : Fin 3136) (j' : Fin 256), x = ix3 u q' j' := ⟨x 0, x 1, x 2, eq_ix3 x⟩
    show k0_pay4 (F := Ideal) _ _ _ _ _ _ _ _ _ (ix3 u q' j') = blockFn X0 W B S T (r0_0.idx (ix3 u q' j'))
    rw [idx_image 0 (by omega) _ u q' j', piece0_eq]
    simp only [View.ld_unit_zero (S := S256x256) hz2, View.ld_unit_zero (S := S1x256) hz2]
    exact image_piece X0 W B S T 0 (by omega) _ u q' j'

end Cert.Arm.KPieces

end
-- ==== Proof.KBlocks.lean ====
/-
  From blocks to the array: the region's output as one function of the five arrays its windows read.

  The grid has 8 points.  Point t reads images 4 t … 4 t + 3 of the first array (a block of four whole images) and the
  four small arrays whole, and writes back a block of four images at the same place of the output.  What it writes at
  (k, q, j) is the block's value there, which depends only on image 4 t + k; so the output array at (n, q, j) is
  max (A (n, q, j) · gate + t j) 0 with the gate of image n, channel j.  The point that writes image n is n / 4.
-/
import proofs.«135338_g2000302613330175_pallasbulk_1059_14_alg».proof.Proof.Gen.KernelIdeal.Frame
import proofs.«135338_g2000302613330175_pallasbulk_1059_14_alg».proof.Proof.KPieces
import Idealize.ShloMosaic.Lib.Pipeline.Value

noncomputable section

namespace Cert.Arm.KBlocks

open Idealize.ShloMosaic Idealize.ShloMosaic.ValueIdx Idealize.SL.Sem Cert.KernelIdeal Cert.KernelIdeal.Gen
open Cert.Arm.KPieces

/-- The output's value at image n, position q, channel j, from the five arrays. -/
def regionVal (A0 : FVec Ideal S32x3136x256 .f32) (A1 : FVec Ideal S256x256 .f32) (A2 A3 A4 : FVec Ideal S1x256 .f32)
    (n : Fin 32) (q : Fin 3136) (j : Fin 256) : EReal :=
  max (A0 (ix3 n q j) * Cert.Arm.gateOf (fun k' => Cert.Arm.pool (fun q' => A0 (ix3 n q' k'))) (fun k' => A1 (ix2 k' j))
      (A2 (ix2 (0 : Fin 1) j)) (A3 (ix2 (0 : Fin 1) j)) (A4 (ix2 (0 : Fin 1) j)) + A4 (ix2 (0 : Fin 1) j)) 0

/-- The output array. -/
def regionOut (A0 : FVec Ideal S32x3136x256 .f32) (A1 : FVec Ideal S256x256 .f32) (A2 A3 A4 : FVec Ideal S1x256 .f32) :
    S32x3136x256.Idx → EReal := fun i => regionVal A0 A1 A2 A3 A4 (i 0) (i 1) (i 2)

variable (m : (ℓ : Loc nD τ sig) → Buf (Elt Ideal) ℓ)

theorem t_lt (t : Fin cfg0.N) : t.val < 8 := lt_of_lt_of_eq t.isLt N_0

/-- The image that slot k of point t's block holds. -/
def imgIdx (t : Fin cfg0.N) (k : Fin 4) : Fin 32 := ⟨4 * t.val + k.val, by have := t_lt t; omega⟩

/-- The printed index maps, decided over the grid: the two image windows sit at block t of the image axis, every other
    coordinate of every window at block 0. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## Where a block's entries sit in their arrays -/

theorem emb0 (t : Fin cfg0.N) (k : Fin 4) (q : Fin 3136) (j : Fin 256) :
    ((cfg0.win 0).blk t).view.emb (ix3 k q j) = ix3 (imgIdx t k) q j := by
  obtain ⟨e0, e1, e2, -⟩ := idx_facts t
  funext a; apply Fin.ext
  match a with
  | ⟨0, _⟩ => show win0_0.index t (0 : Fin 3) * 4 + 1 * k.val = 4 * t.val + k.val; omega
  | ⟨1, _⟩ => show win0_0.index t (1 : Fin 3) * 3136 + 1 * q.val = q.val; omega
  | ⟨2, _⟩ => show win0_0.index t (2 : Fin 3) * 256 + 1 * j.val = j.val; omega

theorem emb5 (t : Fin cfg0.N) (k : Fin 4) (q : Fin 3136) (j : Fin 256) :
    ((cfg0.win 5).blk t).view.emb (ix3 k q j) = ix3 (imgIdx t k) q j := by
  obtain ⟨-, -, -, -, -, -, -, -, -, -, -, e0, e1, e2⟩ := idx_facts t
  funext a; apply Fin.ext
  match a with
  | ⟨0, _⟩ => show win0_5.index t (0 : Fin 3) * 4 + 1 * k.val = 4 * t.val + k.val; omega
  | ⟨1, _⟩ => show win0_5.index t (1 : Fin 3) * 3136 + 1 * q.val = q.val; omega
  | ⟨2, _⟩ => show win0_5.index t (2 : Fin 3) * 256 + 1 * j.val = j.val; omega

theorem emb1 (t : Fin cfg0.N) (k j : Fin 256) : ((cfg0.win 1).blk t).view.emb (ix2 k j) = ix2 k j := by
  obtain ⟨-, -, -, e0, e1, -⟩ := idx_facts t
  funext a; apply Fin.ext
  match a with
  | ⟨0, _⟩ => show win0_1.index t (0 : Fin 2) * 256 + 1 * k.val = k.val; omega
  | ⟨1, _⟩ => show win0_1.index t (1 : Fin 2) * 256 + 1 * j.val = j.val; omega

theorem emb2 (t : Fin cfg0.N) (u : Fin 1) (j : Fin 256) : ((cfg0.win 2).blk t).view.emb (ix2 u j) = ix2 u j := by
  obtain ⟨-, -, -, -, -, e0, e1, -⟩ := idx_facts t
  funext a; apply Fin.ext
  match a with
  | ⟨0, _⟩ => show win0_2.index t (0 : Fin 2) * 1 + 1 * u.val = u.val; omega
  | ⟨1, _⟩ => show win0_2.index t (1 : Fin 2) * 256 + 1 * j.val = j.val; omega

theorem emb3 (t : Fin cfg0.N) (u : Fin 1) (j : Fin 256) : ((cfg0.win 3).blk t).view.emb (ix2 u j) = ix2 u j := by
  obtain ⟨-, -, -, -, -, -, -, e0, e1, -⟩ := idx_facts t
  funext a; apply Fin.ext
  match a with
  | ⟨0, _⟩ => show win0_3.index t (0 : Fin 2) * 1 + 1 * u.val = u.val; omega
  | ⟨1, _⟩ => show win0_3.index t (1 : Fin 2) * 256 + 1 * j.val = j.val; omega

theorem emb4 (t : Fin cfg0.N) (u : Fin 1) (j : Fin 256) : ((cfg0.win 4).blk t).view.emb (ix2 u j) = ix2 u j := by
  obtain ⟨-, -, -, -, -, -, -, -, -, e0, e1, -⟩ := idx_facts t
  funext a; apply Fin.ext
  match a with
  | ⟨0, _⟩ => show win0_4.index t (0 : Fin 2) * 1 + 1 * u.val = u.val; omega
  | ⟨1, _⟩ => show win0_4.index t (1 : Fin 2) * 256 + 1 * j.val = j.val; omega

/-! ## The input blocks read at an index -/

theorem blk0_read (c : Dev nD) (t : Fin cfg0.N) (k : Fin 4) (q : Fin 3136) (j : Fin 256) :
    iblk m c 0 t (ix3 k q j) = (V m c main_v1 : S32x3136x256.Idx → EReal) (ix3 (imgIdx t k) q j) := by
  show V m c main_v1 (((cfg0.win 0).blk t).view.emb (ix3 k q j)) = _
  rw [emb0 t k q j]

theorem blk1_read (c : Dev nD) (t : Fin cfg0.N) (k j : Fin 256) :
    iblk m c 1 t (ix2 k j) = (V m c main_v12 : S256x256.Idx → EReal) (ix2 k j) := by
  show V m c main_v12 (((cfg0.win 1).blk t).view.emb (ix2 k j)) = _
  rw [emb1 t k j]

theorem blk2_read (c : Dev nD) (t : Fin cfg0.N) (u : Fin 1) (j : Fin 256) :
    iblk m c 2 t (ix2 u j) = (V m c main_v13 : S1x256.Idx → EReal) (ix2 u j) := by
  show V m c main_v13 (((cfg0.win 2).blk t).view.emb (ix2 u j)) = _
  rw [emb2 t u j]

theorem blk3_read (c : Dev nD) (t : Fin cfg0.N) (u : Fin 1) (j : Fin 256) :
    iblk m c 3 t (ix2 u j) = (V m c main_v8 : S1x256.Idx → EReal) (ix2 u j) := by
  show V m c main_v8 (((cfg0.win 3).blk t).view.emb (ix2 u j)) = _
  rw [emb3 t u j]

theorem blk4_read (c : Dev nD) (t : Fin cfg0.N) (u : Fin 1) (j : Fin 256) :
    iblk m c 4 t (ix2 u j) = (V m c main_v9 : S1x256.Idx → EReal) (ix2 u j) := by
  show V m c main_v9 (((cfg0.win 4).blk t).view.emb (ix2 u j)) = _
  rw [emb4 t u j]

/-! ## What a point writes back, the cover, the array -/

/-- WHAT POINT t WRITES BACK is block t of the output function of the arrays as the region finds them. -/
theorem flushed_eq (c : Dev nD) (t : Fin cfg0.N) :
    (dats m 0 c).flushed 5 t = ((cfg0.win 5).blk t).view.read (Elt Ideal)
      (regionOut (V m c main_v1) (V m c main_v12) (V m c main_v13) (V m c main_v8) (V m c main_v9)) := by
  show (cfg0.win 5).cut (grid0.coords t) ((dats m 0 c).after 5 t) = _
  rw [after0_5]
  funext y
  obtain ⟨k, q, j, rfl⟩ : ∃ (k : Fin 4) (q : Fin 3136) (j : Fin 256), y = ix3 k q j := ⟨y 0, y 1, y 2, eq_ix3 y⟩
  show out0_5 (iblk m c 0 t) (iblk m c 1 t) (iblk m c 2 t) (iblk m c 3 t) (iblk m c 4 t) (ix3 k q j)
    = regionOut (V m c main_v1) (V m c main_v12) (V m c main_v13) (V m c main_v8) (V m c main_v9) (((cfg0.win 5).blk t).view.emb (ix3 k q j))
  rw [out0_5_apply, emb5 t k q j]
  show blockVal _ _ _ _ _ k q j = regionVal _ _ _ _ _ (imgIdx t k) q j
  unfold blockVal regionVal
  simp only [blk0_read m c t, blk1_read m c t, blk2_read m c t, blk3_read m c t, blk4_read m c t]

/-- An index of the output array is in point t's block iff each coordinate is in the block's range on its axis. -/
theorem mem_blk5 (t : Fin cfg0.N) (i : S32x3136x256.Idx) :
    i ∈ ((cfg0.win 5).blk t).view.set ↔ ∀ a : Fin 3, win0_5.index t a * S4x3136x256.size a ≤ (i a).val
      ∧ (i a).val < win0_5.index t a * S4x3136x256.size a + S4x3136x256.size a := by
  show i ∈ ((View.whole main_v14).slice (win0_5.rect t)).set ↔ _
  rw [View.set_slice_whole, Rect.mem_set_unit]
  exact Iff.rfl

/-- Every index of the output array is in the block of the point that writes its image. -/
theorem cover (i : S32x3136x256.Idx) :
    ∃ t : Fin cfg0.N, (cfg0.win 5).flush t = true ∧ i ∈ ((cfg0.win 5).blk t).view.set := by
  have hi0 : (i 0).val < 32 := (i 0).isLt
  have hi1 : (i 1).val < 3136 := (i 1).isLt
  have hi2 : (i 2).val < 256 := (i 2).isLt
  have hN : (i 0).val / 4 < cfg0.N := by rw [show cfg0.N = 8 from N_0]; omega
  obtain ⟨-, -, -, -, -, -, -, -, -, -, -, e0, e1, e2⟩ := idx_facts ⟨(i 0).val / 4, hN⟩
  have e0' : win0_5.index ⟨(i 0).val / 4, hN⟩ (0 : Fin 3) = (i 0).val / 4 := e0
  refine ⟨⟨(i 0).val / 4, hN⟩, flush0_5 _, ?_⟩
  rw [mem_blk5]
  intro a
  match a with
  | ⟨0, _⟩ =>
    show win0_5.index ⟨(i 0).val / 4, hN⟩ (0 : Fin 3) * 4 ≤ (i 0).val ∧ (i 0).val < win0_5.index ⟨(i 0).val / 4, hN⟩ (0 : Fin 3) * 4 + 4
    omega
  | ⟨1, _⟩ =>
    show win0_5.index ⟨(i 0).val / 4, hN⟩ (1 : Fin 3) * 3136 ≤ (i 1).val ∧ (i 1).val < win0_5.index ⟨(i 0).val / 4, hN⟩ (1 : Fin 3) * 3136 + 3136
    omega
  | ⟨2, _⟩ =>
    show win0_5.index ⟨(i 0).val / 4, hN⟩ (2 : Fin 3) * 256 ≤ (i 2).val ∧ (i 2).val < win0_5.index ⟨(i 0).val / 4, hN⟩ (2 : Fin 3) * 256 + 256
    omega

/-- THE OUTPUT ARRAY after the run: the output function of the five arrays as the region finds them. -/
theorem final (c : Dev nD) :
    (dats m 0 c).arrAt 5 cfg0.N
      = regionOut (V m c main_v1) (V m c main_v12) (V m c main_v13) (V m c main_v8) (V m c main_v9) :=
  (dats m 0 c).arrAt_eq_of_cover 5 _ (fun t _ => flushed_eq m c t) cover

end Cert.Arm.KBlocks

end
-- ==== Proof.KHost.lean ====
/-
  The arrays the region reads, and the layout after it, at an index.

  Before the region the input x is re-laid channels-last and its two spatial axes are merged into one of 3136 flat
  positions (row-major: position q is row q / 56, column q % 56); the weights are transposed and multiplied by κ; the
  bias, the folded scale s = gamma · rsqrt (var + eps) and the folded shift t = beta − mean · s become 1 × 256 rows.
  Each of these reads, at an index, one entry of an argument array or the channel's s or t.  After the region the
  merged axis is split again and channels move back to second place, which reads the [32, 3136, 256] array at
  (n, 56 h + w, j).  Every step is a relabelling of indices: a transpose permutes coordinates, and a reshape keeps the
  row-major position.
-/
import proofs.«135338_g2000302613330175_pallasbulk_1059_14_alg».proof.Defs
import proofs.«135338_g2000302613330175_pallasbulk_1059_14_alg».proof.Proof.Spec
import proofs.«135338_g2000302613330175_pallasbulk_1059_14_alg».proof.Proof.Gen.KernelIdeal.Frame
import Idealize.ShloMosaic.Lib.ValueLayout
import Idealize.ShloMosaic.Lib.IdealHost
noncomputable section
namespace Cert.Arm.KHost
open Idealize.ShloMosaic Idealize.ShloMosaic.ValueIdx Idealize.SL.Sem Cert.KernelIdeal Cert.KernelIdeal.Gen

variable (m : (ℓ : Loc nD τ sig) → Buf (Elt Ideal) ℓ) (c : Dev nD)

/-! ## Layout reads over variables -/

/-- A [32, 56, 56, 256] array with its two middle axes merged reads, at (n, q, k), the operand at
    (n, q / 56, q % 56, k): both have row-major position (n · 3136 + q) · 256 + k. -/
theorem merge_apply (X : S32x56x56x256.Idx → EReal) (n : Fin 32) (q : Fin 3136) (k : Fin 256) :
    shapeCast S32x3136x256 X shapeCasts_S32x56x56x256_S32x3136x256 (ix3 n q k)
      = X (ix4 n (⟨q.val / 56, by omega⟩ : Fin 56) (⟨q.val % 56, by omega⟩ : Fin 56) k) :=
  shapeCast_apply X _ _ _ (by
    rw [Shape.rowMajor_val_four, Shape.rowMajor_val_three]
    show ((n.val * 56 + q.val / 56) * 56 + q.val % 56) * 256 + k.val = (n.val * 3136 + q.val) * 256 + k.val
    omega)

/-- Channels moved last: the [32, 256, 56, 56] operand permuted by [0, 2, 3, 1] reads, at (n, h, w, k), the operand at
    (n, k, h, w). -/
theorem toLast_apply (x : S32x256x56x56.Idx → EReal) (n : Fin 32) (h w : Fin 56) (k : Fin 256) :
    transpose S32x56x56x256 [0, 2, 3, 1] x transposes_S32x256x56x56_S32x56x56x256_0_2_3_1 (ix4 n h w k)
      = x (ix4 n k h w) :=
  transpose_apply _ x _ _ _ fun b => match b with | ⟨0, _⟩ => rfl | ⟨1, _⟩ => rfl | ⟨2, _⟩ => rfl | ⟨3, _⟩ => rfl

/-- Window 0's array (the input re-laid channels-last, spatial axes merged) at (n, q, k): image n, channel k, flat position q. -/
theorem v1_apply (n : Fin 32) (q : Fin 3136) (k : Fin 256) :
    (V m c main_v1 : S32x3136x256.Idx → EReal) (ix3 n q k)
      = Cert.Arm.img (m ((c.tc : Thread nD τ).loc main_arg0)) n k q := by
  have e : (V m c main_v1 : S32x3136x256.Idx → EReal)
      = shapeCast S32x3136x256 (transpose S32x56x56x256 [0, 2, 3, 1] (m ((c.tc : Thread nD τ).loc main_arg0))
          transposes_S32x256x56x56_S32x56x56x256_0_2_3_1) shapeCasts_S32x56x56x256_S32x3136x256 := by
    show StableHlo.after hostOps0 (fun b => m (c, b)) (Proc.devRef .tc main_v1) = _
    after_results
    rfl
  rw [e]
  refine (merge_apply _ n q k).trans ?_
  refine (toLast_apply _ n _ _ k).trans ?_
  rfl

/-- Window 1's array (the weights transposed and scaled) at (k, j): w (j, k) · κ. -/
theorem v12_apply (k j : Fin 256) :
    (V m c main_v12 : S256x256.Idx → EReal) (ix2 k j)
      = Cert.Arm.wk (m ((c.tc : Thread nD τ).loc main_arg1)) j k := by
  have e : (V m c main_v12 : S256x256.Idx → EReal)
      = mulf (transpose S256x256 [1, 0] (m ((c.tc : Thread nD τ).loc main_arg1)) transposes_S256x256_S256x256_1_0)
          (broadcastInDim S256x256 ![] bcast_S_S256x256 (constant (F := Ideal) S_ .f32 0x39A72F05#32)) := by
    show StableHlo.after hostOps0 (fun b => m (c, b)) (Proc.devRef .tc main_v12) = _
    after_results
  rw [e, mulf_apply, transpose_ix2_apply, broadcastInDim_scalar_apply, constant_apply]
  rfl

/-- Window 2's array (the bias as a row) at (0, j). -/
theorem v13_apply (j : Fin 256) :
    (V m c main_v13 : S1x256.Idx → EReal) (ix2 (0 : Fin 1) j)
      = Cert.Arm.bias (m ((c.tc : Thread nD τ).loc main_arg2)) j := by
  have e : (V m c main_v13 : S1x256.Idx → EReal)
      = shapeCast S1x256 (m ((c.tc : Thread nD τ).loc main_arg2)) shapeCasts_S256_S1x256 := by
    show StableHlo.after hostOps0 (fun b => m (c, b)) (Proc.devRef .tc main_v13) = _
    after_results
    rfl
  rw [e, shapeCast_a_1a_apply]
  rfl

/-- The folded scale as a vector: gamma · rsqrt (var + eps), the host's spelling. -/
abbrev scaleVec (gamma var : FVec Ideal S256 .f32) : FVec Ideal S256 .f32 :=
  mulf gamma (Host.rsqrt (addf var (broadcastInDim S256 ![] bcast_S_S256 (constant (F := Ideal) S_ .f32 0x3727C5AC#32))))

/-- It reads the folded scale of the channel. -/
theorem scaleVec_apply (gamma var : FVec Ideal S256 .f32) (j : Fin 256) :
    scaleVec gamma var (ix1 j) = Cert.Arm.bnScale gamma var j := by
  unfold scaleVec Cert.Arm.bnScale
  rw [mulf_apply]
  unfold Host.rsqrt
  rw [Ideal.hostUnary_rsqrt_def, addf_apply, broadcastInDim_scalar_apply, constant_apply]

/-- Window 3's array (the folded scale as a row) at (0, j). -/
theorem v8_apply (j : Fin 256) :
    (V m c main_v8 : S1x256.Idx → EReal) (ix2 (0 : Fin 1) j)
      = Cert.Arm.bnScale (m ((c.tc : Thread nD τ).loc main_arg3)) (m ((c.tc : Thread nD τ).loc main_arg6)) j := by
  have e : (V m c main_v8 : S1x256.Idx → EReal)
      = shapeCast S1x256 (scaleVec (m ((c.tc : Thread nD τ).loc main_arg3)) (m ((c.tc : Thread nD τ).loc main_arg6)))
          shapeCasts_S256_S1x256 := by
    show StableHlo.after hostOps0 (fun b => m (c, b)) (Proc.devRef .tc main_v8) = _
    after_results
    rfl
  rw [e, shapeCast_a_1a_apply]
  exact scaleVec_apply _ _ j

/-- Window 4's array (the folded shift as a row) at (0, j). -/
theorem v9_apply (j : Fin 256) :
    (V m c main_v9 : S1x256.Idx → EReal) (ix2 (0 : Fin 1) j)
      = Cert.Arm.bnShift (m ((c.tc : Thread nD τ).loc main_arg3)) (m ((c.tc : Thread nD τ).loc main_arg4))
          (m ((c.tc : Thread nD τ).loc main_arg5)) (m ((c.tc : Thread nD τ).loc main_arg6)) j := by
  have e : (V m c main_v9 : S1x256.Idx → EReal)
      = shapeCast S1x256 (subf (m ((c.tc : Thread nD τ).loc main_arg4))
          (mulf (m ((c.tc : Thread nD τ).loc main_arg5))
            (scaleVec (m ((c.tc : Thread nD τ).loc main_arg3)) (m ((c.tc : Thread nD τ).loc main_arg6)))))
          shapeCasts_S256_S1x256 := by
    show StableHlo.after hostOps0 (fun b => m (c, b)) (Proc.devRef .tc main_v9) = _
    after_results
    rfl
  rw [e, shapeCast_a_1a_apply, subf_apply, mulf_apply, scaleVec_apply]
  rfl

/-! ## The host operations after the region -/

/-- Channels moved second: the [32, 56, 56, 256] operand permuted by [0, 3, 1, 2] reads, at (n, j, h, w), the operand
    at (n, h, w, j). -/
theorem toSecond_apply (y : S32x56x56x256.Idx → EReal) (n : Fin 32) (j : Fin 256) (h w : Fin 56) :
    transpose S32x256x56x56 [0, 3, 1, 2] y transposes_S32x56x56x256_S32x256x56x56_0_3_1_2 (ix4 n j h w)
      = y (ix4 n h w j) :=
  transpose_apply _ y _ _ _ fun b => match b with | ⟨0, _⟩ => rfl | ⟨1, _⟩ => rfl | ⟨2, _⟩ => rfl | ⟨3, _⟩ => rfl

/-- The merged spatial axis split again: at (n, h, w, j) the [32, 3136, 256] operand at (n, 56 h + w, j); both have
    row-major position (n · 3136 + 56 h + w) · 256 + j. -/
theorem split_apply (A : S32x3136x256.Idx → EReal) (n : Fin 32) (h w : Fin 56) (j : Fin 256) :
    shapeCast S32x56x56x256 A shapeCasts_S32x3136x256_S32x56x56x256 (ix4 n h w j)
      = A (ix3 n (Cert.Arm.flat56 h w) j) :=
  shapeCast_apply A _ _ _ (by
    rw [Shape.rowMajor_val_four, Shape.rowMajor_val_three]
    show (n.val * 3136 + (56 * h.val + w.val)) * 256 + j.val = ((n.val * 56 + h.val) * 56 + w.val) * 256 + j.val
    omega)

/-- The two host operations after the region (split the merged spatial axis, move channels second) at (n, j, h, w). -/
theorem tail_apply (A : FVec Ideal S32x3136x256 .f32) (n : Fin 32) (j : Fin 256) (h w : Fin 56) :
    transpose S32x256x56x56 [0, 3, 1, 2] (shapeCast S32x56x56x256 A shapeCasts_S32x3136x256_S32x56x56x256)
        transposes_S32x56x56x256_S32x256x56x56_0_3_1_2 (ix4 n j h w)
      = A (ix3 n (Cert.Arm.flat56 h w) j) :=
  (toSecond_apply _ n j h w).trans (split_apply A n h w j)

end Cert.Arm.KHost
end
-- ==== Proof.KRun.lean ====
/-
  The kernel's run, read: every weakly fair execution of the program ends with the result array at the specification's
  function of the argument arrays, the arguments unchanged.

  The region's output array is the output function of the five arrays its windows read; those are, index by index, the
  image entries at flat positions, the scaled weights, the bias, the folded scale and the folded shift of the arguments,
  so the region's output at (n, q, j) is the specification at image n, channel j, flat position q.  The two host
  operations after the region split the flat position into (h, w) and move the channel axis second: the result at
  (n, j, h, w) is the region's output at (n, 56 h + w, j).
-/
import proofs.«135338_g2000302613330175_pallasbulk_1059_14_alg».proof.Proof.Gen.KernelIdeal.Frame
import proofs.«135338_g2000302613330175_pallasbulk_1059_14_alg».proof.Proof.KBlocks
import proofs.«135338_g2000302613330175_pallasbulk_1059_14_alg».proof.Proof.KHost
import Idealize.ShloMosaic.Lib.StableHlo.Run

noncomputable section

namespace Cert.Arm.KerSide

open Idealize.ShloMosaic Idealize.ShloMosaic.ValueIdx Idealize.SL.Sem Cert.KernelIdeal Cert.KernelIdeal.Gen

variable (m : (ℓ : Loc nD τ sig) → Buf (Elt Ideal) ℓ) (ρ : Dev nD → PrngReg)

/-- The region's output at (n, q, j) is the specification at image n, channel j, flat position q. -/
theorem regionOut_apply (c : Dev nD) (n : Fin 32) (q : Fin 3136) (j : Fin 256) :
    Cert.Arm.KBlocks.regionOut (V m c main_v1) (V m c main_v12) (V m c main_v13) (V m c main_v8) (V m c main_v9) (ix3 n q j)
      = Cert.Arm.Gq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n j q := by
  show Cert.Arm.KBlocks.regionVal _ _ _ _ _ n q j = _
  unfold Cert.Arm.KBlocks.regionVal Cert.Arm.Gq Cert.Arm.gate
  simp only [Cert.Arm.KHost.v1_apply m c, Cert.Arm.KHost.v12_apply m c, Cert.Arm.KHost.v13_apply m c,
    Cert.Arm.KHost.v8_apply m c, Cert.Arm.KHost.v9_apply m c]

/-- The result buffer after the two host operations that follow the region. -/
theorem result_eq (c : Dev nD) :
    Pipeline.afterTail₀ cfgs (dats m) 0 (V0 m) [hostOps1] c main_v16
      = Cert.Arm.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have hA : Pipeline.withArrays spec0 c (V0 m c) (fun w => (dats m 0 c).arrAt w cfg0.N) (Proc.devRef .tc (Pipeline.arrRef spec0 5))
      = Cert.Arm.KBlocks.regionOut (V m c main_v1) (V m c main_v12) (V m c main_v13) (V m c main_v8) (V m c main_v9) :=
    (Pipeline.withArrays_arr spec0 launch0.win.arr_inj c _ _ 5).trans (Cert.Arm.KBlocks.final m c)
  unfold Pipeline.afterTail₀
  show StableHlo.after hostOps1 _ (Proc.devRef .tc main_v16) = _
  after_results
  funext i
  obtain ⟨n, j, h, w, rfl⟩ : ∃ (n : Fin 32) (j : Fin 256) (h w : Fin 56), i = ix4 n j h w := ⟨i 0, i 1, i 2, i 3, eq_ix4 i⟩
  refine (Cert.Arm.KHost.tail_apply _ n j h w).trans ?_
  refine (congrFun hA _).trans ?_
  rw [regionOut_apply, Cert.Arm.G_apply]

/-- THE RUN: the result array at the specification's function of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v16) = Cert.Arm.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Arm.KerSide

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.RHost.lean ====
/-
  The arrays the region finds, read at an index, from the arguments; and the reshape after the region.

  Before the region the host program re-lays the image array [32,256,56,56] as [32,256,3136] (row-major: position
  56 h + w of the last axis), folds the batch-norm statistics into a scale gamma · rsqrt (var + eps) and a shift
  beta − mean · scale per channel, re-laid as 256 × 1 columns, multiplies the weights by the pooling constant, and
  re-lays the bias as a column.  Read at an index each is the specification's `img`, `wk`, `bias`, `bnScale`,
  `bnShift`.  After the region the result [32,256,3136] is re-laid as [32,256,56,56]: entry (n, j, h, w) reads flat
  position `flat56 h w`.
-/
import proofs.«135338_g2000302613330175_pallasbulk_1059_14_alg».proof.Proof.Spec
import proofs.«135338_g2000302613330175_pallasbulk_1059_14_alg».proof.Proof.LibColumn
import proofs.«135338_g2000302613330175_pallasbulk_1059_14_alg».proof.Proof.Gen.ReferenceIdeal.Frame
import Idealize.ShloMosaic.Lib.IdealHost
import Idealize.ShloMosaic.Lib.ValueLayout

noncomputable section

namespace Cert.Arm.RefSide

open Idealize.ShloMosaic Idealize.ShloMosaic.ValueIdx Idealize.ShloMosaic.TcCoe Idealize.SL.Sem
open Cert.ReferenceIdeal Cert.ReferenceIdeal.Gen

variable (m : (ℓ : Loc nD τ sig) → Buf (Elt Ideal) ℓ)

/-- The image array as the region finds it: the first argument re-laid. -/
theorem V_v0 (c : Dev nD) :
    (V m c main_v0 : S32x256x3136.Idx → EReal)
      = shapeCast S32x256x3136 (m ((c.tc : Thread nD τ).loc main_arg0) : S32x256x56x56.Idx → EReal)
          shapeCasts_S32x256x56x56_S32x256x3136 := by
  show StableHlo.after hostOps0 (fun b => m (c, b)) (Proc.devRef .tc main_v0) = _
  after_results <;> rfl

/-- It reads, at (n, k, q), entry q of image n, channel k. -/
theorem v0_apply (c : Dev nD) (n : Fin 32) (k : Fin 256) (q : Fin 3136) :
    (V m c main_v0 : S32x256x3136.Idx → EReal) (ix3 n k q) = img (m ((c.tc : Thread nD τ).loc main_arg0)) n k q := by
  refine (congrFun (V_v0 m c) (ix3 n k q)).trans ?_
  unfold img
  refine shapeCast_apply (s := S32x256x56x56) (t := S32x256x3136) _ _ _ _ ?_
  rw [Shape.rowMajor_val_four, Shape.rowMajor_val_three]
  show ((n.val * 256 + k.val) * 56 + q.val / 56) * 56 + q.val % 56 = (n.val * 256 + k.val) * 3136 + q.val
  omega

/-- The scaled weights as the region finds them: the second argument times the pooling constant. -/
theorem V_v10 (c : Dev nD) :
    (V m c main_v10 : S256x256.Idx → EReal)
      = mulf (m ((c.tc : Thread nD τ).loc main_arg1) : S256x256.Idx → EReal)
          (broadcastInDim S256x256 ![] bcast_S_S256x256 (constant (F := Ideal) S_ .f32 0x39A72F05#32)) := by
  show StableHlo.after hostOps0 (fun b => m (c, b)) (Proc.devRef .tc main_v10) = _
  after_results <;> rfl

theorem v10_apply (c : Dev nD) (j k : Fin 256) :
    (V m c main_v10 : S256x256.Idx → EReal) (ix2 j k) = wk (m ((c.tc : Thread nD τ).loc main_arg1)) j k := by
  refine (congrFun (V_v10 m c) (ix2 j k)).trans ?_
  unfold wk
  rw [mulf_apply, broadcastInDim_scalar_apply, constant_apply]

/-- The bias column as the region finds it: the third argument re-laid. -/
theorem V_v11 (c : Dev nD) :
    (V m c main_v11 : S256x1.Idx → EReal)
      = shapeCast S256x1 (m ((c.tc : Thread nD τ).loc main_arg2) : S256.Idx → EReal) shapeCasts_S256_S256x1 := by
  show StableHlo.after hostOps0 (fun b => m (c, b)) (Proc.devRef .tc main_v11) = _
  after_results <;> rfl

theorem v11_apply (c : Dev nD) (j : Fin 256) :
    (V m c main_v11 : S256x1.Idx → EReal) (ix2 j (0 : Fin 1)) = bias (m ((c.tc : Thread nD τ).loc main_arg2)) j := by
  refine (congrFun (V_v11 m c) (ix2 j 0)).trans ?_
  unfold bias
  exact Cert.LibColumn.shapeCast_a_a1_apply (a := 256) _ _ j 0

/-- The folded scale as a vector of the fourth and seventh arguments. -/
def scaleVec (gamma var : S256.Idx → EReal) : S256.Idx → EReal :=
  mulf (F := Ideal) (φ := .f32) gamma (Host.rsqrt (F := Ideal) (addf (F := Ideal) (φ := .f32) var
    (broadcastInDim S256 ![] bcast_S_S256 (constant (F := Ideal) S_ .f32 0x3727C5AC#32))))

theorem scaleVec_apply (gamma var : S256.Idx → EReal) (j : Fin 256) :
    scaleVec gamma var (ix1 j) = bnScale gamma var j := by
  unfold scaleVec bnScale
  rw [mulf_apply]
  refine congrArg (fun z => gamma (ix1 j) * z) ?_
  show Ideal.rsqrt (addf (F := Ideal) (φ := .f32) var _ (ix1 j)) = _
  rw [addf_apply, broadcastInDim_scalar_apply, constant_apply]

/-- The scale column as the region finds it. -/
theorem V_v7 (c : Dev nD) :
    (V m c main_v7 : S256x1.Idx → EReal)
      = shapeCast S256x1 (scaleVec (m ((c.tc : Thread nD τ).loc main_arg3)) (m ((c.tc : Thread nD τ).loc main_arg6)))
          shapeCasts_S256_S256x1 := by
  show StableHlo.after hostOps0 (fun b => m (c, b)) (Proc.devRef .tc main_v7) = _
  after_results <;> rfl

theorem v7_apply (c : Dev nD) (j : Fin 256) :
    (V m c main_v7 : S256x1.Idx → EReal) (ix2 j (0 : Fin 1))
      = bnScale (m ((c.tc : Thread nD τ).loc main_arg3)) (m ((c.tc : Thread nD τ).loc main_arg6)) j := by
  refine (congrFun (V_v7 m c) (ix2 j 0)).trans ?_
  refine (Cert.LibColumn.shapeCast_a_a1_apply (a := 256) _ _ j 0).trans ?_
  exact scaleVec_apply _ _ j

/-- The shift column as the region finds it. -/
theorem V_v8 (c : Dev nD) :
    (V m c main_v8 : S256x1.Idx → EReal)
      = shapeCast S256x1 (subf (F := Ideal) (φ := .f32) (m ((c.tc : Thread nD τ).loc main_arg4) : S256.Idx → EReal)
            (mulf (F := Ideal) (φ := .f32) (m ((c.tc : Thread nD τ).loc main_arg5) : S256.Idx → EReal)
              (scaleVec (m ((c.tc : Thread nD τ).loc main_arg3)) (m ((c.tc : Thread nD τ).loc main_arg6)))))
          shapeCasts_S256_S256x1 := by
  show StableHlo.after hostOps0 (fun b => m (c, b)) (Proc.devRef .tc main_v8) = _
  after_results <;> rfl

theorem v8_apply (c : Dev nD) (j : Fin 256) :
    (V m c main_v8 : S256x1.Idx → EReal) (ix2 j (0 : Fin 1))
      = bnShift (m ((c.tc : Thread nD τ).loc main_arg3)) (m ((c.tc : Thread nD τ).loc main_arg4))
          (m ((c.tc : Thread nD τ).loc main_arg5)) (m ((c.tc : Thread nD τ).loc main_arg6)) j := by
  refine (congrFun (V_v8 m c) (ix2 j 0)).trans ?_
  refine (Cert.LibColumn.shapeCast_a_a1_apply (a := 256) _ _ j 0).trans ?_
  unfold bnShift
  rw [subf_apply, mulf_apply, scaleVec_apply]

/-- The reshape after the region: entry (n, j, h, w) reads flat position 56 h + w of (n, j). -/
theorem tail_apply (A : S32x256x3136.Idx → EReal) (n : Fin 32) (j : Fin 256) (h w : Fin 56) :
    shapeCast S32x256x56x56 A shapeCasts_S32x256x3136_S32x256x56x56 (ix4 n j h w) = A (ix3 n j (flat56 h w)) := by
  refine shapeCast_apply (s := S32x256x3136) (t := S32x256x56x56) _ _ _ _ ?_
  rw [Shape.rowMajor_val_four, Shape.rowMajor_val_three]
  show (n.val * 256 + j.val) * 3136 + (56 * h.val + w.val) = ((n.val * 256 + j.val) * 56 + h.val) * 56 + w.val
  omega

end Cert.Arm.RefSide

end
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«135338_g2000302613330175_pallasbulk_1059_14_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.RImage.lean ====
/-
  One image's result block, read at an index, as a function of the five blocks the body loads.

  The body takes the image as a 256 × 3136 matrix (a row per channel, the 3136 flat positions along it), adds up each
  row as 24 column chunks of 128 (left to right) summed over the 128 offsets, plus the tail of 64 columns; the two
  per-row sums are kept as 256 × 1 columns.  Their sum is the pooled column.  The 256 × 256 scaled weights times that
  column, plus the bias column, times the scale column, plus the shift column, through the logistic, times the scale
  column again, is the gate column; it is laid across the 3136 positions, multiplied into the image, the shift column
  laid across is added, and the maximum with zero taken.  Read at (channel j, position q) every layout step names
  one entry of its operand, the chunk chain is the sum over the chunks by associativity and commutativity
  (`Cert.Arm.chain_eq_colsum`), a row sum is a finite sum, and the matrix product is a finite sum over the contracted
  coordinate.
-/
import proofs.«135338_g2000302613330175_pallasbulk_1059_14_alg».proof.Proof.Spec
import proofs.«135338_g2000302613330175_pallasbulk_1059_14_alg».proof.Proof.LibDot
import proofs.«135338_g2000302613330175_pallasbulk_1059_14_alg».proof.Proof.LibRows
import proofs.«135338_g2000302613330175_pallasbulk_1059_14_alg».proof.Proof.Gen.ReferenceIdeal.Skeleton
import Idealize.ShloMosaic.Lib.ValueLayout

noncomputable section

namespace Cert.Arm.RefSide

open Idealize.ShloMosaic Idealize.ShloMosaic.ValueIdx
open Cert.ReferenceIdeal Cert.ReferenceIdeal.Gen

/-- The logistic of a vector, read at an index. -/
theorem logistic_apply {s : Shape} {φ : FTy} (a : FVec Ideal s φ) (i : s.Idx) : logistic a i = Ideal.logistic (a i) := rfl

/-- The image block with its unit axis dropped, at (channel k, position q). -/
theorem pay2_apply (x0 : Vec Ideal S1x256x3136 .f32) (k : Fin 256) (q : Fin 3136) :
    k0_pay2 x0 (ix2 k q) = x0 (ix3 (0 : Fin 1) k q) := by
  unfold k0_pay2
  exact shapeCast_1ab_ab_apply x0 _ k q

/-- The first per-row sum, at row k: the 24 chunks added left to right, summed over the 128 offsets. -/
theorem pay3_apply (x0 : Vec Ideal S1x256x3136 .f32) (k : Fin 256) :
    k0_pay3 x0 (ix2 k (0 : Fin 1)) = ∑ r : Fin 128, colsum (fun q => x0 (ix3 (0 : Fin 1) k q)) r := by
  unfold k0_pay3
  refine (Cert.LibColumn.shapeCast_a_a1_apply _ _ k 0).trans ?_
  refine (Cert.LibRows.rowSum_apply _ _ _ _ _ k).trans ?_
  refine Finset.sum_congr rfl fun r _ => ?_
  simp only [addf_apply, slice2_axis1_eq, pay2_apply]
  exact chain_eq_colsum (fun q => x0 (ix3 (0 : Fin 1) k q)) r

/-- The second per-row sum, at row k: the tail of 64 positions from 3072. -/
theorem pay4_apply (x0 : Vec Ideal S1x256x3136 .f32) (k : Fin 256) :
    k0_pay4 x0 (ix2 k (0 : Fin 1)) = ∑ r : Fin 64, x0 (ix3 (0 : Fin 1) k (⟨3072 + r.val, by omega⟩ : Fin 3136)) := by
  unfold k0_pay4
  refine (Cert.LibColumn.shapeCast_a_a1_apply _ _ k 0).trans ?_
  refine (Cert.LibRows.rowSum_apply _ _ _ _ _ k).trans ?_
  refine Finset.sum_congr rfl fun r _ => ?_
  simp only [slice2_axis1_eq, pay2_apply]

/-- The pooled column at row k: the pooled sum of channel k's positions. -/
theorem pooled_apply (x0 : Vec Ideal S1x256x3136 .f32) (k : Fin 256) :
    k0_pay3 x0 (ix2 k (0 : Fin 1)) + k0_pay4 x0 (ix2 k (0 : Fin 1)) = pool (fun q => x0 (ix3 (0 : Fin 1) k q)) := by
  rw [pay3_apply, pay4_apply]
  rfl

/-- The scalar zero of the final maximum. -/
theorem scalar_zero : (Scalar.ofBits (F := Ideal) .f32 0x00000000#32 : EReal) = 0 := Ideal.ofBits_zero_f32

/-- The stored block at (channel j, position q) from the image matrix, the two per-row sum columns and the loaded
    weight, bias, scale and shift blocks. -/
theorem pay1_apply (v1 : FVec Ideal S256x3136 .f32) (v50 v53 : FVec Ideal S256x1 .f32) (v55 : Vec Ideal S256x256 .f32)
    (v58 v61 v64 v68 v73 : Vec Ideal S256x1 .f32) (j : Fin 256) (q : Fin 3136) :
    k0_pay1 v1 v50 v53 v55 v58 v61 v64 v68 v73 (ix3 (0 : Fin 1) j q)
      = max (v1 (ix2 j q)
          * (Ideal.logistic (((∑ k : Fin 256, v55 (ix2 j k) * (v50 (ix2 k (0 : Fin 1)) + v53 (ix2 k (0 : Fin 1))))
                + v58 (ix2 j (0 : Fin 1))) * v61 (ix2 j (0 : Fin 1)) + v64 (ix2 j (0 : Fin 1))) * v68 (ix2 j (0 : Fin 1)))
          + v73 (ix2 j (0 : Fin 1))) 0 := by
  unfold k0_pay1
  refine (shapeCast_ab_1ab_apply _ _ 0 j q).trans ?_
  simp only [maximumf_apply, addf_apply, mulf_apply, logistic_apply, broadcast_apply, shapeCast_self,
    Cert.LibColumn.broadcastTo_a1_ab_apply, scalar_zero,
    Cert.LibDot.matmul_zero_plain_apply dot_S256x256_S256x1_S256x1_1_0_0_1_n_n rfl rfl rfl rfl rfl rfl]

/-- One image's result block at (channel j, position q) from the five loaded blocks: the image block x0, the scaled
    weights x1, and the bias, scale and shift columns x2, x3, x4. -/
theorem block_apply (x0 : Vec Ideal S1x256x3136 .f32) (x1 : Vec Ideal S256x256 .f32) (x2 x3 x4 : Vec Ideal S256x1 .f32)
    (j : Fin 256) (q : Fin 3136) :
    k0_pay1 (k0_pay2 x0) (k0_pay3 x0) (k0_pay4 x0) x1 x2 x3 x4 x3 x4 (ix3 (0 : Fin 1) j q)
      = max (x0 (ix3 (0 : Fin 1) j q)
          * gateOf (fun k => pool (fun q' => x0 (ix3 (0 : Fin 1) k q'))) (fun k => x1 (ix2 j k)) (x2 (ix2 j (0 : Fin 1)))
              (x3 (ix2 j (0 : Fin 1))) (x4 (ix2 j (0 : Fin 1)))
          + x4 (ix2 j (0 : Fin 1))) 0 := by
  rw [pay1_apply, pay2_apply]
  unfold gateOf
  simp only [pooled_apply]
  refine congrArg (fun z => max (x0 (ix3 (0 : Fin 1) j q) * (Ideal.logistic ((z + x2 (ix2 j (0 : Fin 1))) * x3 (ix2 j (0 : Fin 1)) + x4 (ix2 j (0 : Fin 1))) * x3 (ix2 j (0 : Fin 1))) + x4 (ix2 j (0 : Fin 1))) 0) ?_
  exact Finset.sum_congr rfl fun k _ => mul_comm _ _

end Cert.Arm.RefSide

end
-- ==== Proof.RBlocks.lean ====
/-
  From one image's block to the whole result array of the region.

  The grid has 32 points; point t works on image t: the image window's block at point t is image t (block index
  (t, 0, 0) of blocks 1 × 256 × 3136), the weight, bias, scale and shift windows' blocks are their whole arrays (block
  index 0 on every axis), and the result window's block at point t is image t of the result.  An entry of a block sits
  in its array at block index × block size + its coordinate.  So what point t writes back is block t of the one
  function (n, j, q) ↦ the specification's result at image n, channel j, flat position q, and the 32 blocks cover the
  array: the point covering image n is n.
-/
import proofs.«135338_g2000302613330175_pallasbulk_1059_14_alg».proof.Proof.RHost
import proofs.«135338_g2000302613330175_pallasbulk_1059_14_alg».proof.Proof.RImage
import proofs.«135338_g2000302613330175_pallasbulk_1059_14_alg».proof.Proof.Gen.ReferenceIdeal.Frame
import Idealize.ShloMosaic.Lib.Pipeline.Value
import Idealize.ShloMosaic.Lib.Tactic

noncomputable section

namespace Cert.Arm.RefSide

open Idealize.ShloMosaic Idealize.ShloMosaic.ValueIdx Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The region's result array as one function of the arguments: at (n, j, q) the specification's result of image n,
    channel j at flat position q. -/
def Gblk (c : Dev nD) : S32x256x3136.Idx → EReal := fun i =>
  Gq (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (i 0) (i 1) (i 2)

/-- The block index maps over the grid: the image and result windows move with the point along the first axis, the
    other four stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The image window's block at point t is image t. -/
theorem iblk0_apply (c : Dev nD) (t : Fin cfg0.N) (n : Fin 32) (hn : n.val = t.val) (k : Fin 256) (q : Fin 3136) :
    (iblk m c 0 t : Vec Ideal S1x256x3136 .f32) (ix3 (0 : Fin 1) k q) = img (m ((c.tc : Thread nD τ).loc main_arg0)) n k q := by
  obtain ⟨e0, e1, e2, -⟩ := idx_facts t
  unfold iblk
  rw [View.read_apply]
  show (V m c main_v0 : S32x256x3136.Idx → EReal) _ = _
  refine Eq.trans ?_ (v0_apply m c n k q)
  refine congrArg (V m c main_v0 : S32x256x3136.Idx → EReal) ?_
  funext a
  apply Fin.ext
  match a with
  | ⟨0, _⟩ => show win0_0.index t (0 : Fin 3) * 1 + 1 * 0 = n.val; omega
  | ⟨1, _⟩ => show win0_0.index t (1 : Fin 3) * 256 + 1 * k.val = k.val; omega
  | ⟨2, _⟩ => show win0_0.index t (2 : Fin 3) * 3136 + 1 * q.val = q.val; omega

/-- The weight window's block is the scaled weights. -/
theorem iblk1_apply (c : Dev nD) (t : Fin cfg0.N) (j k : Fin 256) :
    (iblk m c 1 t : Vec Ideal S256x256 .f32) (ix2 j k) = wk (m ((c.tc : Thread nD τ).loc main_arg1)) j k := by
  obtain ⟨-, -, -, e0, e1, -⟩ := idx_facts t
  unfold iblk
  rw [View.read_apply]
  show (V m c main_v10 : S256x256.Idx → EReal) _ = _
  refine Eq.trans ?_ (v10_apply m c j k)
  refine congrArg (V m c main_v10 : S256x256.Idx → EReal) ?_
  funext a
  apply Fin.ext
  match a with
  | ⟨0, _⟩ => show win0_1.index t (0 : Fin 2) * 256 + 1 * j.val = j.val; omega
  | ⟨1, _⟩ => show win0_1.index t (1 : Fin 2) * 256 + 1 * k.val = k.val; omega

/-- The bias window's block is the bias column. -/
theorem iblk2_apply (c : Dev nD) (t : Fin cfg0.N) (j : Fin 256) :
    (iblk m c 2 t : Vec Ideal S256x1 .f32) (ix2 j (0 : Fin 1)) = bias (m ((c.tc : Thread nD τ).loc main_arg2)) j := by
  obtain ⟨-, -, -, -, -, e0, e1, -⟩ := idx_facts t
  unfold iblk
  rw [View.read_apply]
  show (V m c main_v11 : S256x1.Idx → EReal) _ = _
  refine Eq.trans ?_ (v11_apply m c j)
  refine congrArg (V m c main_v11 : S256x1.Idx → EReal) ?_
  funext a
  apply Fin.ext
  match a with
  | ⟨0, _⟩ => show win0_2.index t (0 : Fin 2) * 256 + 1 * j.val = j.val; omega
  | ⟨1, _⟩ => show win0_2.index t (1 : Fin 2) * 1 + 1 * 0 = 0; omega

/-- The scale window's block is the scale column. -/
theorem iblk3_apply (c : Dev nD) (t : Fin cfg0.N) (j : Fin 256) :
    (iblk m c 3 t : Vec Ideal S256x1 .f32) (ix2 j (0 : Fin 1))
      = bnScale (m ((c.tc : Thread nD τ).loc main_arg3)) (m ((c.tc : Thread nD τ).loc main_arg6)) j := by
  obtain ⟨-, -, -, -, -, -, -, e0, e1, -⟩ := idx_facts t
  unfold iblk
  rw [View.read_apply]
  show (V m c main_v7 : S256x1.Idx → EReal) _ = _
  refine Eq.trans ?_ (v7_apply m c j)
  refine congrArg (V m c main_v7 : S256x1.Idx → EReal) ?_
  funext a
  apply Fin.ext
  match a with
  | ⟨0, _⟩ => show win0_3.index t (0 : Fin 2) * 256 + 1 * j.val = j.val; omega
  | ⟨1, _⟩ => show win0_3.index t (1 : Fin 2) * 1 + 1 * 0 = 0; omega

/-- The shift window's block is the shift column. -/
theorem iblk4_apply (c : Dev nD) (t : Fin cfg0.N) (j : Fin 256) :
    (iblk m c 4 t : Vec Ideal S256x1 .f32) (ix2 j (0 : Fin 1))
      = bnShift (m ((c.tc : Thread nD τ).loc main_arg3)) (m ((c.tc : Thread nD τ).loc main_arg4))
          (m ((c.tc : Thread nD τ).loc main_arg5)) (m ((c.tc : Thread nD τ).loc main_arg6)) j := by
  obtain ⟨-, -, -, -, -, -, -, -, -, e0, e1, -⟩ := idx_facts t
  unfold iblk
  rw [View.read_apply]
  show (V m c main_v8 : S256x1.Idx → EReal) _ = _
  refine Eq.trans ?_ (v8_apply m c j)
  refine congrArg (V m c main_v8 : S256x1.Idx → EReal) ?_
  funext a
  apply Fin.ext
  match a with
  | ⟨0, _⟩ => show win0_4.index t (0 : Fin 2) * 256 + 1 * j.val = j.val; omega
  | ⟨1, _⟩ => show win0_4.index t (1 : Fin 2) * 1 + 1 * 0 = 0; omega

/-- What point t writes back is block t of `Gblk`. -/
theorem flushed_eq (c : Dev nD) (t : Fin cfg0.N) :
    (dats m 0 c).flushed 5 t = ((cfg0.win 5).blk t).view.read (Elt Ideal) (Gblk m c) := by
  have hN : t.val < 32 := Nat.lt_of_lt_of_eq t.isLt (show cfg0.N = 32 from N_0)
  show (cfg0.win 5).cut (grid0.coords t) ((dats m 0 c).after 5 t) = _
  rw [after0_5]
  unfold out0_5
  rw [View.canon_unit_zero hz3]
  simp only [View.ld_unit_zero (S := S1x256x3136) hz3, View.ld_unit_zero (S := S256x256) hz2, View.ld_unit_zero (S := S256x1) hz2]
  funext y
  obtain ⟨u, j, q, rfl⟩ : ∃ (u : Fin 1) (j : Fin 256) (q : Fin 3136), y = ix3 u j q := ⟨y 0, y 1, y 2, eq_ix3 y⟩
  obtain rfl : u = 0 := Subsingleton.elim _ _
  refine (block_apply (iblk m c 0 t) (iblk m c 1 t) (iblk m c 2 t) (iblk m c 3 t) (iblk m c 4 t) j q).trans ?_
  rw [View.read_apply]
  have hemb : ((cfg0.win 5).blk t).view.emb (ix3 (0 : Fin 1) j q) = (ix3 (⟨t.val, hN⟩ : Fin 32) j q : S32x256x3136.Idx) := by
    obtain ⟨-, -, -, -, -, -, -, -, -, -, -, e0, e1, e2⟩ := idx_facts t
    funext a
    apply Fin.ext
    match a with
    | ⟨0, _⟩ => show win0_5.index t (0 : Fin 3) * 1 + 1 * 0 = t.val; omega
    | ⟨1, _⟩ => show win0_5.index t (1 : Fin 3) * 256 + 1 * j.val = j.val; omega
    | ⟨2, _⟩ => show win0_5.index t (2 : Fin 3) * 3136 + 1 * q.val = q.val; omega
  refine Eq.trans ?_ (congrArg (Gblk m c) hemb).symm
  simp only [iblk0_apply m c t ⟨t.val, hN⟩ rfl, iblk1_apply m c t, iblk2_apply m c t, iblk3_apply m c t, iblk4_apply m c t]
  rfl

/-- An index of the result array is in point t's block iff each coordinate is in the block's range on its axis. -/
theorem mem_blk (t : Fin cfg0.N) (i : S32x256x3136.Idx) :
    i ∈ ((cfg0.win 5).blk t).view.set ↔ ∀ a : Fin 3, win0_5.index t a * S1x256x3136.size a ≤ (i a).val ∧ (i a).val < win0_5.index t a * S1x256x3136.size a + S1x256x3136.size a := by
  show i ∈ ((View.whole main_v12).slice (win0_5.rect t)).set ↔ _
  rw [View.set_slice_whole, Rect.mem_set_unit]
  exact Iff.rfl

/-- Every entry of the result array is in the block of the point of its image. -/
theorem cover (i : S32x256x3136.Idx) :
    ∃ t : Fin cfg0.N, (cfg0.win 5).flush t = true ∧ i ∈ ((cfg0.win 5).blk t).view.set := by
  obtain ⟨n, j, q, rfl⟩ : ∃ (n : Fin 32) (j : Fin 256) (q : Fin 3136), i = ix3 n j q := ⟨i 0, i 1, i 2, eq_ix3 i⟩
  obtain ⟨t, ht⟩ : ∃ t : Fin cfg0.N, t.val = n.val :=
    ⟨⟨n.val, Nat.lt_of_lt_of_eq n.isLt (show cfg0.N = 32 from N_0).symm⟩, rfl⟩
  obtain ⟨-, -, -, -, -, -, -, -, -, -, -, e0, e1, e2⟩ := idx_facts t
  refine ⟨t, flush0_5 t, ?_⟩
  rw [mem_blk]
  intro a
  have hn := n.isLt
  have hj := j.isLt
  have hq := q.isLt
  match a with
  | ⟨0, _⟩ => show win0_5.index t (0 : Fin 3) * 1 ≤ n.val ∧ n.val < win0_5.index t (0 : Fin 3) * 1 + 1; omega
  | ⟨1, _⟩ => show win0_5.index t (1 : Fin 3) * 256 ≤ j.val ∧ j.val < win0_5.index t (1 : Fin 3) * 256 + 256; omega
  | ⟨2, _⟩ => show win0_5.index t (2 : Fin 3) * 3136 ≤ q.val ∧ q.val < win0_5.index t (2 : Fin 3) * 3136 + 3136; omega

/-- The region's result array after the run. -/
theorem final (c : Dev nD) : (dats m 0 c).arrAt 5 cfg0.N = Gblk m c :=
  (dats m 0 c).arrAt_eq_of_cover 5 (Gblk m c) (fun t _ => flushed_eq m c t) fun i => cover i

end Cert.Arm.RefSide

end
-- ==== Proof.RRun.lean ====
/-
  The reference program's run: its result is the specification's array, its arguments are unchanged.

  After the region the program re-lays the region's result array [32,256,3136] as [32,256,56,56].  The region's
  result array is, entry by entry, the specification's result at (image, channel, flat position); the re-laying reads
  entry (n, j, h, w) at flat position 56 h + w: the specification's array.  No operation writes an argument.
-/
import proofs.«135338_g2000302613330175_pallasbulk_1059_14_alg».proof.Proof.RBlocks
import proofs.«135338_g2000302613330175_pallasbulk_1059_14_alg».proof.Proof.Gen.ReferenceIdeal.Frame
import Idealize.ShloMosaic.Lib.Tactic

noncomputable section

namespace Cert.Arm.RefSide

open Idealize.ShloMosaic Idealize.ShloMosaic.ValueIdx Idealize.ShloMosaic.TcCoe Idealize.SL.Sem
open Cert.ReferenceIdeal Cert.ReferenceIdeal.Gen

/-- The region's result array re-laid as [32,256,56,56] is the specification's array. -/
theorem relaid_eq (m : (ℓ : Loc nD τ sig) → Buf (Elt Ideal) ℓ) (c : Dev nD) :
    shapeCast S32x256x56x56 (Gblk m c) shapeCasts_S32x256x3136_S32x256x56x56
      = G (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6)) := by
  funext i
  obtain ⟨n, j, h, w, rfl⟩ : ∃ (n : Fin 32) (j : Fin 256) (h w : Fin 56), i = ix4 n j h w := ⟨i 0, i 1, i 2, i 3, eq_ix4 i⟩
  rw [tail_apply, G_apply]
  rfl

/-- The result buffer after the host reshape that follows the region. -/
theorem result_eq (m : (ℓ : Loc nD τ sig) → Buf (Elt Ideal) ℓ) (c : Dev nD) :
    Pipeline.afterTail₀ cfgs (dats m) 0 (V0 m) [hostOps1] c main_v13
      = G (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6)) := by
  unfold Pipeline.afterTail₀
  show StableHlo.after hostOps1 _ (Proc.devRef .tc main_v13) = _
  after_results
  refine Eq.trans ?_ (relaid_eq m c)
  exact congrArg (fun A : S32x256x3136.Idx → EReal => shapeCast S32x256x56x56 A shapeCasts_S32x256x3136_S32x256x56x56)
    ((Pipeline.withArrays_arr spec0 launch0.win.arr_inj c _ _ 5).trans (final m c))

theorem run
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v13)
          = Cert.Arm.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Arm.RefSide

end
-- ==== Proof.lean ====
/-
  The kernel against its reference: an attention-refinement block, out = relu (bn2 (x · sigmoid (bn1 (conv1x1 (avgpool x))))),
  both batch norms in inference form and folded into a per-channel scale s = gamma · rsqrt (var + eps) and shift
  t = beta − mean · s.

  Both programs compute, for image n and channel c, the pooled sum of the channel's 3136 spatial entries, the gate
  logistic ((Σ_k pool (n, k) · (w (c, k) · κ) + b c) · s c + t c) · s c with κ the f32 word of 1/3136, and the result
  max (x (n, c, h, w) · gate (n, c) + t c) 0 (the specification, Proof/Spec.lean).  They differ in layout, in the
  grouping of the pooled sum and in the order of the two factors under the convolution's sum:
  · the kernel moves the channel axis last and merges the spatial axes on the host, works on blocks of four images with
    the channels in the last axis, adds the 24 chunks of 128 positions pairwise as a balanced tree, and moves the axes
    back on the host;
  · the reference keeps the channel axis second, works on one image per grid point, and adds the 24 chunks left to right.
  On the extended reals addition is commutative and associative and multiplication commutative, so the two are equal
  index by index; no finiteness is needed, and the precondition is never opened.

  Each side's run is read to the specification's function of the argument arrays (Proof/KRun.lean for the kernel,
  Proof/RRun.lean for the reference); here the two runs are put side by side from memories that agree on the arguments.
  The three frames are the generated ones, and the idealization rewrote nothing, so the preservation claim is trivial.
-/
import proofs.«135338_g2000302613330175_pallasbulk_1059_14_alg».proof.Defs
import proofs.«135338_g2000302613330175_pallasbulk_1059_14_alg».proof.Proof.Gen.Kernel
import proofs.«135338_g2000302613330175_pallasbulk_1059_14_alg».proof.Proof.Gen.Kernel.Skeleton
import proofs.«135338_g2000302613330175_pallasbulk_1059_14_alg».proof.Proof.Gen.Kernel.Launch
import proofs.«135338_g2000302613330175_pallasbulk_1059_14_alg».proof.Proof.Gen.Kernel.Points
import proofs.«135338_g2000302613330175_pallasbulk_1059_14_alg».proof.Proof.Gen.Kernel.Frame
import proofs.«135338_g2000302613330175_pallasbulk_1059_14_alg».proof.Proof.Gen.KernelIdeal
import proofs.«135338_g2000302613330175_pallasbulk_1059_14_alg».proof.Proof.Gen.KernelIdeal.Skeleton
import proofs.«135338_g2000302613330175_pallasbulk_1059_14_alg».proof.Proof.Gen.KernelIdeal.Launch
import proofs.«135338_g2000302613330175_pallasbulk_1059_14_alg».proof.Proof.Gen.KernelIdeal.Points
import proofs.«135338_g2000302613330175_pallasbulk_1059_14_alg».proof.Proof.Gen.KernelIdeal.Frame
import proofs.«135338_g2000302613330175_pallasbulk_1059_14_alg».proof.Proof.Gen.ReferenceIdeal
import proofs.«135338_g2000302613330175_pallasbulk_1059_14_alg».proof.Proof.Gen.ReferenceIdeal.Skeleton
import proofs.«135338_g2000302613330175_pallasbulk_1059_14_alg».proof.Proof.Gen.ReferenceIdeal.Launch
import proofs.«135338_g2000302613330175_pallasbulk_1059_14_alg».proof.Proof.Gen.ReferenceIdeal.Points
import proofs.«135338_g2000302613330175_pallasbulk_1059_14_alg».proof.Proof.Gen.ReferenceIdeal.Frame
import proofs.«135338_g2000302613330175_pallasbulk_1059_14_alg».proof.Proof.Gen.Pre_finite_inputs
import proofs.«135338_g2000302613330175_pallasbulk_1059_14_alg».proof.Proof.Spec
import proofs.«135338_g2000302613330175_pallasbulk_1059_14_alg».proof.Proof.KRun
import proofs.«135338_g2000302613330175_pallasbulk_1059_14_alg».proof.Proof.RRun
import Idealize.ShloMosaic.Adequacy
import Idealize.ShloMosaic.Init

noncomputable section

namespace Cert.Proof

open Idealize.ShloMosaic Idealize.SL.Sem

/-- Both idealized programs, run from memories that agree on the arguments, end with the result array at the
    specification's function of those arguments. -/
theorem algebraic : Cert.algebraic_KernelIdeal_ReferenceIdeal := by
  intro m ρ m' ρ' _ hagree
  refine ⟨fun c => Cert.Arm.G
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)),
    Cert.Arm.KerSide.run m ρ, ?_⟩
  refine (θ_run Cert.ReferenceIdeal.defs _ _).mono (fun r h c => ?_) (Cert.Arm.RefSide.run m' ρ')
  obtain ⟨h0, h1, h2, h3, h4, h5, h6⟩ := hagree c
  refine ⟨?_, (h c).2⟩
  rw [(h c).1, h0, h1, h2, h3, h4, h5, h6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
